-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x256 : Shape := ⟨2, ![4096, 256]⟩
abbrev S256x32 : Shape := ⟨2, ![256, 32]⟩
abbrev S32 : Shape := ⟨1, ![32]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  main_v18

def fn {F : FTy → Type} [FloatOps F] (main_arg0 : FVec F S4096x4096 .f32) (main_arg1 : FVec F S4096x256 .f32) (main_arg2 : FVec F S256x32 .f32) (main_arg3 : FVec F S32 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S256x32 .f32 := Host.absf main_arg2
  let main_cst_2 : FVec F S_ .f32 := constant S_ .f32 0x7F800000#32
  let main_v10 : FVec F S256x32 .f32 := broadcastInDim S256x32 ![] bcast_S_S256x32 main_cst_2
  let main_v11 : IVec S256x32 1 := cmpf .olt main_v9 main_v10
  let main_c_3 : IVec S_ 1 := constantI S_ 1 1#1
  let main_v12 : IVec S_ 1 := (fun x v => Host.reduce IntOp.andi x v reducesTo_S256x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_v13 main_v16
-- ==== Kernel.lean ====
abbrev S4096x4096 : Shape := ⟨2, ![4096, 4096]⟩
abbrev S4096x256 : Shape := ⟨2, ![4096, 256]⟩
abbrev S256x32 : Shape := ⟨2, ![256, 32]⟩
abbrev S32 : Shape := ⟨1, ![32]⟩
abbrev S1x32 : Shape := ⟨2, ![1, 32]⟩
abbrev S32x2048 : Shape := ⟨2, ![32, 2048]⟩
abbrev S512x4096 : Shape := ⟨2, ![512, 4096]⟩
abbrev S32x512 : Shape := ⟨2, ![32, 512]⟩
abbrev S4096x32 : Shape := ⟨2, ![4096, 32]⟩
abbrev S32x4096 : Shape := ⟨2, ![32, 4096]⟩

abbrev nBuf : Space → Nat
  | .hbm => 9
  | .vmem => 12
  | .smem => 0
  | _ => 0

abbrev bufTy : (tb : Table) → Fin (tcTables nBuf tb) → BufTy
  | .hbm, ⟨0, _⟩ => ⟨S4096x4096, .f32⟩
  | .hbm, ⟨1, _⟩ => ⟨S4096x256, .f32⟩
  | .hbm, ⟨2, _⟩ => ⟨S256x32, .f32⟩
  | .hbm, ⟨3, _⟩ => ⟨S32, .f32⟩
  | .hbm, ⟨4, _⟩ => ⟨S1x32, .f32⟩
  | .hbm, ⟨5, _⟩ => ⟨S32x2048, .f32⟩
  | .hbm, ⟨6, _⟩ => ⟨S32x2048, .f32⟩
  | .hbm, ⟨7, _⟩ => ⟨S32x4096, .f32⟩
  | .hbm, ⟨8, _⟩ => ⟨S4096x32, .f32⟩
  | .local _ .vmem, ⟨0, _⟩ => ⟨S4096x256, .f32⟩
  | .local _ .vmem, ⟨1, _⟩ => ⟨S256x32, .f32⟩
  | .local _ .vmem, ⟨2, _⟩ => ⟨S1x32, .f32⟩
  | .local _ .vmem, ⟨3, _⟩ => ⟨S512x4096, .f32⟩
  | .local _ .vmem, ⟨4, _⟩ => ⟨S512x4096, .f32⟩
  | .local _ .vmem, ⟨5, _⟩ => ⟨S512x4096, .f32⟩
  | .local _ .vmem, ⟨6, _⟩ => ⟨S512x4096, .f32⟩
  | .local _ .vmem, ⟨7, _⟩ => ⟨S32x512, .f32⟩
  | .local _ .vmem, ⟨8, _⟩ => ⟨S32x512, .f32⟩
  | .local _ .vmem, ⟨9, _⟩ => ⟨S32x512, .f32⟩
  | .local _ .vmem, ⟨10, _⟩ => ⟨S32x512, .f32⟩
  | .local _ .vmem, ⟨11, _⟩ => ⟨S4096x32, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S32_S1x32 : S32.ShapeCasts S1x32
  inb_S4096x256_S4096x256_0_0 : ∀ a, (![0, 0] : Fin 2 → Nat) a + S4096x256.size a ≤ S4096x256.size a
  h_S4096x256 : 0 < S4096x256.numel
  inb_S256x32_S256x32_0_0 : ∀ a, (![0, 0] : Fin 2 → Nat) a + S256x32.size a ≤ S256x32.size a
  h_S256x32 : 0 < S256x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4096x32 : S1x32.Broadcasts S4096x32
  inb_S4096x32_S4096x32_0_0 : ∀ a, (![0, 0] : Fin 2 → Nat) a + S4096x32.size a ≤ S4096x32.size a
  h_S4096x32 : 0 < S4096x32.numel
  shapeCasts_S4096x32_S4096x32 : S4096x32.ShapeCasts S4096x32
  inb_S512x4096_S512x4096_0_0 : ∀ a, (![0, 0] : Fin 2 → Nat) a + S512x4096.size a ≤ S512x4096.size a
  h_S512x4096 : 0 < S512x4096.numel
  inb_S32x512_S32x512_0_0 : ∀ a, (![0, 0] : Fin 2 → Nat) a + S32x512.size a ≤ S32x512.size a
  h_S32x512 : 0 < S32x512.numel
  concatenates_S32x2048_S32x2048_S32x4096_d1 : Shape.Concatenates [S32x2048, S32x2048] S32x4096 1
  transposes_S32x4096_S4096x32_1_0 : S32x4096.Transposes [1, 0] S4096x32
  dot_S4096x256_S256x32_S4096x32_1_0_0_1_n_n_wf : DotDims.WF S4096x256 S256x32 S4096x32 [1] [0] [0] [1] [] []
  dot_S4096x32_S512x4096_S32x512_0_1_1_0_n_n_wf : DotDims.WF S4096x32 S512x4096 S32x512 [0] [1] [1] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S4096x256.size a
  hwx0_0 : ∀ i : grid0.Coords, EltTy.bits .f32 = 32 ∨ (Rect.block (s := S4096x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S256x32.size a
  hwx0_1 : ∀ i : grid0.Coords, EltTy.bits .f32 = 32 ∨ (Rect.block (s := S256x32) S256x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S4096x4096.size a
  hwx0_3 : ∀ i : grid0.Coords, EltTy.bits .f32 = 32 ∨ (Rect.block (s := S4096x4096) S512x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x4096.size a ≤ S4096x4096.size a
  hwx0_4 : ∀ i : grid0.Coords, EltTy.bits .f32 = 32 ∨ (Rect.block (s := S4096x4096) S512x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x512.size a ≤ S32x2048.size a
  hwx0_5 : ∀ i : grid0.Coords, EltTy.bits .f32 = 32 ∨ (Rect.block (s := S32x2048) S32x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S32x512.size a ≤ S32x2048.size a
  hwx0_6 : ∀ i : grid0.Coords, EltTy.bits .f32 = 32 ∨ (Rect.block (s := S32x2048) S32x512.size (cc0_transform_6 i) (hinb0_6 i)).WholeWords (EltTy.packing .f32)

variable [Facts₀]

def dot_S4096x256_S256x32_S4096x32_1_0_0_1_n_n : DotDims S4096x256 S256x32 S4096x32 where
  lhsContracting := [1]
  rhsContracting := [0]
  lhsNonContracting := [0]
  rhsNonContracting := [1]
  lhsBatch := []
  rhsBatch := []
  wf := dot_S4096x256_S256x32_S4096x32_1_0_0_1_n_n_wf
def dot_S4096x32_S512x4096_S32x512_0_1_1_0_n_n : DotDims S4096x32 S512x4096 S32x512 where
  lhsContracting := [0]
  rhsContracting := [1]
  lhsNonContracting := [1]
  rhsNonContracting := [0]
  lhsBatch := []
  rhsBatch := []
  wf := dot_S4096x32_S512x4096_S32x512_0_1_1_0_n_n_wf

abbrev win0_0 : Pipeline.Window sig grid0 :=
  Pipeline.Window.ofSpec (Memref.whole main_arg1) S4096x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S512x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S512x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_0) S32x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_1) S32x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096x256 : Shape := ⟨2, ![4096, 256]⟩
abbrev S256x32 : Shape := ⟨2, ![256, 32]⟩
abbrev S32 : Shape := ⟨1, ![32]⟩
abbrev S4096x32 : Shape := ⟨2, ![4096, 32]⟩
abbrev S1x32 : Shape := ⟨2, ![1, 32]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x256, .f32⟩
  | .hbm, ⟨2, _⟩ => ⟨S256x32, .f32⟩
  | .hbm, ⟨3, _⟩ => ⟨S32, .f32⟩
  | .hbm, ⟨4, _⟩ => ⟨S4096x32, .f32⟩
  | .hbm, ⟨5, _⟩ => ⟨S1x32, .f32⟩
  | .hbm, ⟨6, _⟩ => ⟨S4096x32, .f32⟩
  | .hbm, ⟨7, _⟩ => ⟨S4096x32, .f32⟩
  | .hbm, ⟨8, _⟩ => ⟨S4096x32, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S4096x32_0_1 : S1x32.BroadcastsInDim S4096x32 (![0, 1] : Fin 2 → Fin S4096x32.rank)
  dot_S4096x256_S256x32_S4096x32_1_0_0_1_n_n_wf : DotDims.WF S4096x256 S256x32 S4096x32 [1] [0] [0] [1] [] []
  dot_S4096x4096_S4096x32_S4096x32_1_0_0_1_n_n_wf : DotDims.WF S4096x4096 S4096x32 S4096x32 [1] [0] [0] [1] [] []

variable [Facts₀]

def dot_S4096x256_S256x32_S4096x32_1_0_0_1_n_n : DotDims S4096x256 S256x32 S4096x32 where
  lhsContracting := [1]
  rhsContracting := [0]
  lhsNonContracting := [0]
  rhsNonContracting := [1]
  lhsBatch := []
  rhsBatch := []
  wf := dot_S4096x256_S256x32_S4096x32_1_0_0_1_n_n_wf
def dot_S4096x4096_S4096x32_S4096x32_1_0_0_1_n_n : DotDims S4096x4096 S4096x32 S4096x32 where
  lhsContracting := [1]
  rhsContracting := [0]
  lhsNonContracting := [0]
  rhsNonContracting := [1]
  lhsBatch := []
  rhsBatch := []
  wf := dot_S4096x4096_S4096x32_S4096x32_1_0_0_1_n_n_wf

class Facts : Prop extends Facts₀ where

variable [Facts]
-- ==== Proof.BodyK.lean ====
/-
  The kernel body at one grid point, as two Hoare triples over whole staging buffers.

  The body keeps a 4096×32 array h in a scratch buffer. At the first grid point it stores h := b·W + bias there
  (the payload `k0_pay1` of the three small inputs); at every point it then reads h back and stores into its two
  output blocks the products of hᵀ with the transposes of two 512-row blocks of a (`k0_pay2`, `k0_pay3`).
  So at the first point the scratch ends at `k0_pay1 x1 x2 x3` whatever it held, and at a later point it is
  left as found; in both cases the two outputs end at the payloads of the scratch's value and the a-blocks,
  and every input buffer is left as found.
-/
import proofs.«132720_g11879879542422_cont_fleet_303_39_alg».proof.Proof.Gen.Kernel.Launch
import proofs.«132720_g11879879542422_cont_fleet_303_39_alg».proof.Proof.Gen.Kernel.Skeleton
import proofs.«132720_g11879879542422_cont_fleet_303_39_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The offset of a store that begins at the buffer's first element. -/
theorem off2_zero : (![0, 0] : Fin 2 → ℕ) = fun _ => 0 := by funext a; fin_cases a <;> rfl

/-- A buffer read back after one store through the rectangle that is the whole buffer holds the stored value,
    whatever it held before. -/
theorem read_store_whole {sig' : RefSig} {κ : Kind} {sp : Space} {S : Shape} {e : EltTy} {Val : EltTy → Type} [∀ e, Nonempty (Val e)]
    (v : View sig' κ sp S e) (f : v.ty.Contents Val) {off : Fin S.rank → ℕ} (h : off = fun _ => 0)
    (inb : ∀ a, off a + S.size a ≤ S.size a) (w : S.Idx → Val e) :
    v.read Val (v.writes Val f [(⟨Rect.unit off S.size inb, w⟩ : View.Piece Val S e)]) = w := by
  subst h
  rw [View.read_writes_eq_canon _ _ _ (fun y => ⟨_, List.mem_singleton_self _, by
    show y ∈ (Rect.whole S).set; rw [Rect.set_whole]; exact Finset.mem_univ y⟩), View.canon_unit_zero rfl]

/-- The branch condition of the body: the grid coordinate is zero. -/
abbrev isFirst (i : grid0.Coords) : Prop := (Scalar.cmpi .ne (Scalar.extui (Scalar.cmpi .eq (BitVec.ofNat 32 (i 0).val) 0#32)) 0#32) = 1#1

set_option maxHeartbeats 1000000 in
theorem body_first (c : Dev nD) (i : grid0.Coords)
    (arg1 : Memref sig .tc .vmem S4096x256 .f32) (harg1 : arg1.IsWhole) (arg2 : Memref sig .tc .vmem S256x32 .f32) (harg2 : arg2.IsWhole)
    (arg3 : Memref sig .tc .vmem S1x32 .f32) (harg3 : arg3.IsWhole) (arg4 : Memref sig .tc .vmem S512x4096 .f32) (harg4 : arg4.IsWhole)
    (arg5 : Memref sig .tc .vmem S512x4096 .f32) (harg5 : arg5.IsWhole) (arg6 : Memref sig .tc .vmem S32x512 .f32) (harg6 : arg6.IsWhole)
    (arg7 : Memref sig .tc .vmem S32x512 .f32) (harg7 : arg7.IsWhole) (arg8 : Memref sig .tc .vmem S4096x32 .f32) (harg8 : arg8.IsWhole)
    (hc : isFirst i)
    (x1 : Vec F S4096x256 .f32) (x2 : Vec F S256x32 .f32) (x3 : Vec F S1x32 .f32) (x4 x5 : Vec F S512x4096 .f32)
    (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (k0_pay2 (k0_pay1 x1 x2 x3) x4)
            ∗ owns (c : Thread nD τ) arg7 fullShare (k0_pay3 (k0_pay1 x1 x2 x3) x5)
            ∗ owns (c : Thread nD τ) arg8 fullShare (k0_pay1 x1 x2 x3)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8) K := by
  simp only [cc0__fused_kernel_eq_skeleton]; unfold cc0__fused_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := harg1.eq_unread hf1; obtain rfl := harg2.eq_unread hf2; obtain rfl := harg3.eq_unread hf3
  obtain rfl := harg4.eq_unread hf4; obtain rfl := harg5.eq_unread hf5
  sl_exec (disch := exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_words
    rw [read_store_whole _ _ off2_zero, View.readCov_unit_zero _ off2_zero]
    simp only [View.readAt_eq_ld, Memref.IsWhole.read_unread, View.ld_unit_zero (S := S4096x256) off2_zero, View.ld_unit_zero (S := S256x32) off2_zero, View.ld_unit_zero (S := S1x32) off2_zero, View.ld_unit_zero (S := S512x4096) off2_zero, View.ld_unit_zero (S := S4096x32) off2_zero]
  isplitl [H7]
  · iexists _; isplitr
    swap; · iexact H7
    ipureintro
    sl_unfold_words
    rw [read_store_whole _ _ off2_zero, View.readCov_unit_zero _ off2_zero]
    simp only [View.readAt_eq_ld, Memref.IsWhole.read_unread, View.ld_unit_zero (S := S4096x256) off2_zero, View.ld_unit_zero (S := S256x32) off2_zero, View.ld_unit_zero (S := S1x32) off2_zero, View.ld_unit_zero (S := S512x4096) off2_zero, View.ld_unit_zero (S := S4096x32) off2_zero]
  · iexists _; isplitr
    swap; · iexact H8
    ipureintro
    sl_unfold_words
    rw [read_store_whole _ _ off2_zero]
    simp only [View.readAt_eq_ld, Memref.IsWhole.read_unread, View.ld_unit_zero (S := S4096x256) off2_zero, View.ld_unit_zero (S := S256x32) off2_zero, View.ld_unit_zero (S := S1x32) off2_zero, View.ld_unit_zero (S := S512x4096) off2_zero, View.ld_unit_zero (S := S4096x32) off2_zero]

set_option maxHeartbeats 1000000 in
theorem body_later (c : Dev nD) (i : grid0.Coords)
    (arg1 : Memref sig .tc .vmem S4096x256 .f32) (harg1 : arg1.IsWhole) (arg2 : Memref sig .tc .vmem S256x32 .f32) (harg2 : arg2.IsWhole)
    (arg3 : Memref sig .tc .vmem S1x32 .f32) (harg3 : arg3.IsWhole) (arg4 : Memref sig .tc .vmem S512x4096 .f32) (harg4 : arg4.IsWhole)
    (arg5 : Memref sig .tc .vmem S512x4096 .f32) (harg5 : arg5.IsWhole) (arg6 : Memref sig .tc .vmem S32x512 .f32) (harg6 : arg6.IsWhole)
    (arg7 : Memref sig .tc .vmem S32x512 .f32) (harg7 : arg7.IsWhole) (arg8 : Memref sig .tc .vmem S4096x32 .f32) (harg8 : arg8.IsWhole)
    (hc : ¬ isFirst i)
    (x1 : Vec F S4096x256 .f32) (x2 : Vec F S256x32 .f32) (x3 : Vec F S1x32 .f32) (x4 x5 : Vec F S512x4096 .f32) (xs : Vec F S4096x32 .f32)
    (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ owns (c : Thread nD τ) arg8 fullShare xs
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (k0_pay2 xs x4)
            ∗ owns (c : Thread nD τ) arg7 fullShare (k0_pay3 xs x5)
            ∗ owns (c : Thread nD τ) arg8 fullShare xs) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8) K := by
  simp only [cc0__fused_kernel_eq_skeleton]; unfold cc0__fused_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, Hk⟩
  obtain rfl := harg1.eq_unread hf1; obtain rfl := harg2.eq_unread hf2; obtain rfl := harg3.eq_unread hf3
  obtain rfl := harg4.eq_unread hf4; obtain rfl := harg5.eq_unread hf5; obtain rfl := harg8.eq_unread hf8
  sl_exec (disch := exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_words
    rw [read_store_whole _ _ off2_zero]
    simp only [View.readAt_eq_ld, Memref.IsWhole.read_unread, View.ld_unit_zero (S := S4096x256) off2_zero, View.ld_unit_zero (S := S256x32) off2_zero, View.ld_unit_zero (S := S1x32) off2_zero, View.ld_unit_zero (S := S512x4096) off2_zero, View.ld_unit_zero (S := S4096x32) off2_zero]
  isplitl [H7]
  · iexists _; isplitr
    swap; · iexact H7
    ipureintro
    sl_unfold_words
    rw [read_store_whole _ _ off2_zero]
    simp only [View.readAt_eq_ld, Memref.IsWhole.read_unread, View.ld_unit_zero (S := S4096x256) off2_zero, View.ld_unit_zero (S := S256x32) off2_zero, View.ld_unit_zero (S := S1x32) off2_zero, View.ld_unit_zero (S := S512x4096) off2_zero, View.ld_unit_zero (S := S4096x32) off2_zero]
  · iexists _; isplitr; · ipureintro; exact harg8.read_unread _
    iexact H8

end Cert.Kernel.Hand

end
-- ==== Proof.DataK.lean ====
/-
  The proof data of the one pipeline and its body obligation.

  The region finds the argument arrays as the launch left them and the bias reshaped to 1×32 (`V`). Window w's
  block at grid point t is read off those (`iblk`): windows 0, 1, 2 (b, W, the bias row) are whole arrays at every
  point; windows 3 and 4 are rows [512 t, 512 t + 512) and [512 (t + 4), 512 (t + 4) + 512) of a; windows 5 and 6
  are columns [512 t, 512 t + 512) of the two 32×2048 results.
  The scratch holds h = b·W + bias (`hval`) from the first point on, the same value at every later point, so the
  invariant before a point other than the first names it, and after each point the two output buffers hold the
  payloads of h and the point's two a-blocks. The two windows on a each hold half of a's share.
-/
import proofs.«132720_g11879879542422_cont_fleet_303_39_alg».proof.Proof.BodyK

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents after the bias's reshape. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; first | rfl | repeat' constructor
theorem hostOps1_fresh : (hostOps1 : List (HloOp τ sig (Elt F))).Forall fun op => op.fresh = ∅ := by
  simp only [List.Forall]; repeat' constructor

/-- @main is the reshape, the region, then the concatenation and the transposition: it reduces to the region
    continued by the two later lines, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The staging memrefs at a point, as the pipeline passes them -/

abbrev ms0 (t : Fin cfg0.N) : Memref sig .tc .vmem S4096x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x32 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x32 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x4096 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x4096 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S32x512 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S32x512 .f32 := win0_6.stage (cfg0.slots t 6)
abbrev hs6 (t : Fin cfg0.N) : (ms6 t).IsWhole := hstage0_6 ((cfg0.slots t 6).cast nbuf0_6)
/-- The scratch operand: a whole scoped buffer of the kernel's own. -/
abbrev scM : Memref sig .tc .vmem S4096x32 .f32 := Memref.whole cc0_scratch0

/-- The branch condition holds at the first grid point only. -/
theorem hfirst : ∀ t : Fin cfg0.N, isFirst (grid0.coords t) ↔ t.val = 0 :=
  (by decide +kernel : ∀ t : Fin grid0.N, isFirst (grid0.coords t) ↔ t.val = 0)

/-- The class's invariant with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The proof data -/

/-- h = b·W + bias, as the first point computes it from the three small windows' blocks. -/
def hval (c : Dev nD) : Vec F S4096x32 .f32 := k0_pay1 (iblk m c 0 t0_0) (iblk m c 1 t0_0) (iblk m c 2 t0_0)

/-- The invariant before position `n`: before the first point the class's (the scratch at anything); afterwards the
    scratch at h and the generator register at some state. -/
def PhiS (c : Dev nD) : ℕ → sProp 𝕄
  | 0 => Pipeline.ΦA spec0 c
  | _ + 1 => iprop(iprop(owns (c : Thread nD τ) scM fullShare (hval m c)) ∗ (∃ r, prngReg c r))

theorem PhiS_pos (c : Dev nD) (n : ℕ) (hz : n ≠ 0) :
    PhiS m c n = iprop(iprop(owns (c : Thread nD τ) scM fullShare (hval m c)) ∗ (∃ r, prngReg c r)) := by
  cases n with
  | zero => exact absurd rfl hz
  | succ n => rfl

/-- The proof data on core `c`: the arrays as the region finds them; after the body at point `t` each input's buffer at
    its block and the two outputs' at the payloads of h and the point's a-blocks; the invariant `PhiS`; nothing owed;
    the two windows on a at the two halves of its share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay2 (hval m c) (iblk m c 3 t)
    | ⟨6, _⟩ => k0_pay3 (hval m c) (iblk m c 4 t)
  Φ t := PhiS m c t.val
  q w := match w with
    | ⟨3, _⟩ => fullShare.left
    | ⟨4, _⟩ => fullShare.right
    | _ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = k0_pay2 (hval m c) (iblk m c 3 t) := by dsimp only [dats]
theorem after6 (c : Dev nD) (t : Fin cfg0.N) : (dats m 0 c).after 6 t = k0_pay3 (hval m c) (iblk m c 4 t) := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

set_option maxHeartbeats 2000000 in
/-- The body at any point: the inputs' buffers hold their blocks; at the first point the scratch is handed over at
    anything and taken back at h, at a later point it is handed over and taken back at h. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, after0, after1, after2, after3, after4, after5, after6]
  rw [show (dats m 0 c).owesAt () t.succ = (dats m 0 c).owesAt () t.castSucc from rfl]
  rw [show (dats m 0 c).Φ t.succ = iprop(iprop(owns (c : Thread nD τ) scM fullShare (hval m c)) ∗ (∃ r, prngReg c r)) from rfl]
  rw [show (dats m 0 c).Φ t.castSucc = PhiS m c t.val from rfl]
  by_cases hz : t.val = 0
  · obtain rfl : t = t0_0 := Fin.ext hz
    rw [show PhiS m c (t0_0 : Fin cfg0.N).val = Pipeline.ΦA spec0 c from rfl, PhiA_eq]
    unfold hval
    iintro ⟨⟨HS, Hg⟩, Ho, H0, H1, H2, H3, H4, H5, H6⟩
    icases H0 with ⟨%d0, H0⟩; icases H1 with ⟨%d1, H1⟩; icases H2 with ⟨%d2, H2⟩; icases H3 with ⟨%d3, H3⟩; icases H4 with ⟨%d4, H4⟩
    iapply (body_first c (grid0.coords t0_0) (ms0 t0_0) (hs0 t0_0) (ms1 t0_0) (hs1 t0_0) (ms2 t0_0) (hs2 t0_0) (ms3 t0_0) (hs3 t0_0)
      (ms4 t0_0) (hs4 t0_0) (ms5 t0_0) (hs5 t0_0) (ms6 t0_0) (hs6 t0_0) scM (Memref.isWhole_whole _) ((hfirst t0_0).mpr rfl)
      (iblk m c 0 t0_0) (iblk m c 1 t0_0) (iblk m c 2 t0_0) (iblk m c 3 t0_0) (iblk m c 4 t0_0) Set.univ _)
    isplitl [H0]; · iexact H0
    isplitl [H1]; · iexact H1
    isplitl [H2]; · iexact H2
    isplitl [H3]; · iexact H3
    isplitl [H4]; · iexact H4
    isplitl [H5]; · icases H5 with ⟨%d5, H5⟩; iexists _; iexact H5
    isplitl [H6]; · icases H6 with ⟨%d6, H6⟩; iexists _; iexact H6
    isplitl [HS]; · iexact HS
    iintro ⟨H0, H1, H2, H3, H4, H5, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [PhiS_pos m c _ hz]
    iintro ⟨⟨HS, Hg⟩, Ho, H0, H1, H2, H3, H4, H5, H6⟩
    icases H0 with ⟨%d0, H0⟩; icases H1 with ⟨%d1, H1⟩; icases H2 with ⟨%d2, H2⟩; icases H3 with ⟨%d3, H3⟩; icases H4 with ⟨%d4, H4⟩
    iapply (body_later c (grid0.coords t) (ms0 t) (hs0 t) (ms1 t) (hs1 t) (ms2 t) (hs2 t) (ms3 t) (hs3 t)
      (ms4 t) (hs4 t) (ms5 t) (hs5 t) (ms6 t) (hs6 t) scM (Memref.isWhole_whole _) (fun h => hz ((hfirst t).mp h))
      (iblk m c 0 t) (iblk m c 1 t) (iblk m c 2 t) (iblk m c 3 t) (iblk m c 4 t) (hval m c) Set.univ _)
    isplitl [H0]; · iexact H0
    isplitl [H1]; · iexact H1
    isplitl [H2]; · iexact H2
    isplitl [H3]; · iexact H3
    isplitl [H4]; · iexact H4
    isplitl [H5]; · icases H5 with ⟨%d5, H5⟩; iexists _; iexact H5
    isplitl [H6]; · icases H6 with ⟨%d6, H6⟩; iexists _; iexact H6
    isplitl [HS]; · iexact HS
    iintro ⟨H0, H1, H2, H3, H4, H5, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Pipeline.ΦA spec0 c from rfl]

/-- After the last point the invariant gives the class's back: the scratch's named contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 4 := N_0; omega), PhiA_eq]
  iintro ⟨HS, Hg⟩
  isplitl [HS]
  · iexists _; iexact HS
  iexact Hg

end Cert.Kernel.Hand

end
-- ==== Proof.RunK.lean ====
/-
  The run of @main: the reshape of the bias, the region, the concatenation and the transposition.

  Two of the pipeline's windows read the one array a (rows [512 t, 512 t + 512) and rows [512 (t + 4), 512 (t + 4) + 512) at
  point t), so the launch is taken by its fields: at the region's entry a's full share is split into its two halves,
  one per window (`hsplit`); both windows being inputs, each half is handed back at the entry contents. The two lines after
  the region read the two 32×2048 results the region wrote and write the 32×4096 concatenation and its 4096×32 transpose;
  they run within those four buffers and the bias (`htail`). The run's post names the transposed result and says that
  the four argument arrays end as they began.
-/
import proofs.«132720_g11879879542422_cont_fleet_303_39_alg».proof.Proof.DataK

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays, one by one -/

/-- The distinct buffers behind the seven windows' arrays: six, a being read by two windows. -/
theorem arrBufs_eq (c : Dev nD) (W : (b : Ref sig .tc) → Buf (Elt F) ((c : Thread nD τ).loc b)) :
    (Pipeline.arrBufs spec0 c W : sProp 𝕄)
      = iprop((((c : Thread nD τ).loc main_arg1) ↦{fullShare} W main_arg1) ∗ (((c : Thread nD τ).loc main_arg2) ↦{fullShare} W main_arg2)
          ∗ (((c : Thread nD τ).loc main_v0) ↦{fullShare} W main_v0) ∗ (((c : Thread nD τ).loc main_arg0) ↦{fullShare} W main_arg0)
          ∗ (((c : Thread nD τ).loc main_v1_0) ↦{fullShare} W main_v1_0) ∗ (((c : Thread nD τ).loc main_v1_1) ↦{fullShare} W main_v1_1)) := by
  unfold Pipeline.arrBufs
  exact bigSep_eq_bigSepL_of_eq [main_arg1, main_arg2, main_v0, main_arg0, main_v1_0, main_v1_1] (by decide) (by decide) _

/-- The proof data's arrays, window by window: the two windows on a at the two halves of its share. -/
theorem arrays_eq7 (c : Dev nD) (A : (w : Fin cfg0.W) → Buf (Elt F) ((cfg0.win w).arr.view.loc (c : Thread nD τ))) :
    ((dats m 0 c).arrays A : sProp 𝕄)
      = iprop((((c : Thread nD τ).loc main_arg1) ↦{fullShare} A 0) ∗ (((c : Thread nD τ).loc main_arg2) ↦{fullShare} A 1)
          ∗ (((c : Thread nD τ).loc main_v0) ↦{fullShare} A 2)
          ∗ (((c : Thread nD τ).loc main_arg0) ↦{fullShare.left} A 3) ∗ (((c : Thread nD τ).loc main_arg0) ↦{fullShare.right} A 4)
          ∗ (((c : Thread nD τ).loc main_v1_0) ↦{fullShare} A 5) ∗ (((c : Thread nD τ).loc main_v1_1) ↦{fullShare} A 6)) := by
  unfold Dat.arrays
  rw [bigSep_W0]
  rw [(arr_whole0 0).set_eq_univ, (arr_whole0 1).set_eq_univ, (arr_whole0 2).set_eq_univ, (arr_whole0 3).set_eq_univ,
    (arr_whole0 5).set_eq_univ, (arr_whole0 6).set_eq_univ]
  rfl

/-- ENTRY: the six buffers at the region-entry contents are the proof data's arrays there, a's share halved. -/
theorem hsplit (c : Dev nD) : (Pipeline.arrBufs spec0 c (V m c) : sProp 𝕄) ⊢ (dats m 0 c).arrays ((dats m 0 c).arrAt · 0) := by
  rw [arrBufs_eq, arrays_eq7]
  iintro ⟨H1, H2, H0v, Ha, H5, H6⟩
  isplitl [H1]; · iexact H1
  isplitl [H2]; · iexact H2
  isplitl [H0v]; · iexact H0v
  ihave Hs := (pointsTo_share (PosShare.mem_left_op_right fullShare)).1 $$ Ha
  icases Hs with ⟨Hl, Hr⟩
  isplitl [Hl]; · iexact Hl
  isplitl [Hr]; · iexact Hr
  isplitl [H5]; · iexact H5
  iexact H6

/-! ## The two lines after the region -/

/-- The buffers the two later lines run within: the two results of the region, the bias, the concatenation, the transpose. -/
def tailS : Finset (DevRef τ sig) :=
  ([Proc.devRef .tc main_v1_0, Proc.devRef .tc main_v1_1, Proc.devRef .tc main_arg3, Proc.devRef .tc main_v2, Proc.devRef .tc main_v3] : List (DevRef τ sig)).toFinset

/-- The contents the later lines start from: the region-entry contents with the region's two results in place. -/
def Wt (c : Dev nD) : Valuation τ sig (Elt F) :=
  Function.update (Function.update (V0 m c) (Proc.devRef .tc main_v1_0) ((dats m 0 c).arrAt 5 cfg0.N))
    (Proc.devRef .tc main_v1_1) ((dats m 0 c).arrAt 6 cfg0.N)

theorem Wt_v1_1 (c : Dev nD) : Wt m c (Proc.devRef .tc main_v1_1) = (dats m 0 c).arrAt 6 cfg0.N := by
  unfold Wt; rw [Function.update_self]
theorem Wt_v1_0 (c : Dev nD) : Wt m c (Proc.devRef .tc main_v1_0) = (dats m 0 c).arrAt 5 cfg0.N := by
  unfold Wt; rw [Function.update_of_ne (StableHlo.devRef_ne_of_ne (by decide)), Function.update_self]
theorem Wt_other (c : Dev nD) (b : Ref sig .tc) (h5 : b ≠ main_v1_0) (h6 : b ≠ main_v1_1) :
    Wt m c (Proc.devRef .tc b) = V m c b := by
  unfold Wt; rw [Function.update_of_ne (StableHlo.devRef_ne_of_ne h6), Function.update_of_ne (StableHlo.devRef_ne_of_ne h5)]

/-- The contents after the two later lines, read at a TensorCore reference. -/
def Vend (c : Dev nD) (b : Ref sig .tc) : Buf (Elt F) ((c : Thread nD τ).loc b) :=
  StableHlo.after (List.flatten [hostOps1]) (Wt m c) (Proc.devRef .tc b)

theorem held_tailS (c : Dev nD) (W : Valuation τ sig (Elt F)) :
    (StableHlo.held (c : Thread nD τ) tailS W : sProp 𝕄)
      = iprop((((c : Thread nD τ).loc main_v1_0) ↦{fullShare} W (Proc.devRef .tc main_v1_0)) ∗ (((c : Thread nD τ).loc main_v1_1) ↦{fullShare} W (Proc.devRef .tc main_v1_1))
          ∗ (((c : Thread nD τ).loc main_arg3) ↦{fullShare} W (Proc.devRef .tc main_arg3)) ∗ (((c : Thread nD τ).loc main_v2) ↦{fullShare} W (Proc.devRef .tc main_v2))
          ∗ (((c : Thread nD τ).loc main_v3) ↦{fullShare} W (Proc.devRef .tc main_v3))) := by
  unfold StableHlo.held tailS
  exact bigSep_eq_bigSepL_of_eq _ rfl (by decide) _

theorem tail_sub : ∀ ops ∈ ([hostOps1] : List (List (HloOp τ sig (Elt F)))), ∀ op ∈ ops, op.bufs ⊆ tailS := by
  intro ops hops op hop
  simp only [List.mem_cons, List.mem_nil_iff, or_false] at hops
  subst hops
  simp only [hostOps1, List.mem_cons, List.mem_nil_iff, or_false] at hop
  rcases hop with rfl | rfl
  · rw [StableHlo.binary_bufs]; intro b hb
    simp only [Finset.mem_insert, Finset.mem_singleton] at hb
    rcases hb with rfl | rfl | rfl <;> simp [tailS]
  · rw [StableHlo.unary_bufs]; intro b hb
    simp only [Finset.mem_insert, Finset.mem_singleton] at hb
    rcases hb with rfl | rfl <;> simp [tailS]

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- The later lines leave the region's two results in place, -/
theorem Vend_v1_0 (c : Dev nD) : Vend m c main_v1_0 = (dats m 0 c).arrAt 5 cfg0.N := by
  unfold Vend; simp only [List.flatten_cons, List.flatten_nil, List.append_nil]
  rw [StableHlo.after_of_forall_not_mem _ _ (fun op hop => ?_), Wt_v1_0]
  simp only [hostOps1, List.mem_cons, List.mem_nil_iff, or_false] at hop
  rcases hop with rfl | rfl <;> simp only [StableHlo.unary_writes, StableHlo.binary_writes, Finset.mem_singleton] <;> exact StableHlo.devRef_ne_of_ne (by decide)
theorem Vend_v1_1 (c : Dev nD) : Vend m c main_v1_1 = (dats m 0 c).arrAt 6 cfg0.N := by
  unfold Vend; simp only [List.flatten_cons, List.flatten_nil, List.append_nil]
  rw [StableHlo.after_of_forall_not_mem _ _ (fun op hop => ?_), Wt_v1_1]
  simp only [hostOps1, List.mem_cons, List.mem_nil_iff, or_false] at hop
  rcases hop with rfl | rfl <;> simp only [StableHlo.unary_writes, StableHlo.binary_writes, Finset.mem_singleton] <;> exact StableHlo.devRef_ne_of_ne (by decide)
/-- and the bias too. -/
theorem Vend_arg3 (c : Dev nD) : Vend m c main_arg3 = V m c main_arg3 := by
  unfold Vend; simp only [List.flatten_cons, List.flatten_nil, List.append_nil]
  rw [StableHlo.after_of_forall_not_mem _ _ (fun op hop => ?_), Wt_other m c main_arg3 (by decide) (by decide)]
  simp only [hostOps1, List.mem_cons, List.mem_nil_iff, or_false] at hop
  rcases hop with rfl | rfl <;> simp only [StableHlo.unary_writes, StableHlo.binary_writes, Finset.mem_singleton] <;> exact StableHlo.devRef_ne_of_ne (by decide)

/-- The buffers that bypass the region, one by one. -/
theorem rest_eq (c : Dev nD) (W : (b : Ref sig .tc) → Buf (Elt F) ((c : Thread nD τ).loc b)) :
    (Pipeline.unscopedRestP (Ix := Unit) (Name := ℕ) (U := UR sig nD τ) (Lvl := ℕ) Pipeline.Prefetch.none spec0 c W : sProp 𝕄)
      = iprop((((c : Thread nD τ).loc main_arg3) ↦{fullShare} W main_arg3) ∗ (((c : Thread nD τ).loc main_v2) ↦{fullShare} W main_v2) ∗ (((c : Thread nD τ).loc main_v3) ↦{fullShare} W main_v3)) := by
  rw [Pipeline.unscopedRestP_none, unscopedRest0_eq]

end Cert.Kernel.Hand

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem held_Wt (c : Dev nD) :
    (StableHlo.held (c : Thread nD τ) tailS (Wt m c) : sProp 𝕄)
      = iprop((((c : Thread nD τ).loc main_v1_0) ↦{fullShare} (dats m 0 c).arrAt 5 cfg0.N) ∗ (((c : Thread nD τ).loc main_v1_1) ↦{fullShare} (dats m 0 c).arrAt 6 cfg0.N)
          ∗ (((c : Thread nD τ).loc main_arg3) ↦{fullShare} V m c main_arg3) ∗ (((c : Thread nD τ).loc main_v2) ↦{fullShare} V m c main_v2)
          ∗ (((c : Thread nD τ).loc main_v3) ↦{fullShare} V m c main_v3)) := by
  rw [held_tailS, Wt_v1_0, Wt_v1_1, Wt_other m c main_arg3 (by decide) (by decide), Wt_other m c main_v2 (by decide) (by decide),
    Wt_other m c main_v3 (by decide) (by decide)]

theorem held_after (c : Dev nD) :
    (StableHlo.held (c : Thread nD τ) tailS (StableHlo.after (List.flatten [hostOps1]) (Wt m c)) : sProp 𝕄)
      = iprop((((c : Thread nD τ).loc main_v1_0) ↦{fullShare} (dats m 0 c).arrAt 5 cfg0.N) ∗ (((c : Thread nD τ).loc main_v1_1) ↦{fullShare} (dats m 0 c).arrAt 6 cfg0.N)
          ∗ (((c : Thread nD τ).loc main_arg3) ↦{fullShare} Vend m c main_arg3) ∗ (((c : Thread nD τ).loc main_v2) ↦{fullShare} Vend m c main_v2)
          ∗ (((c : Thread nD τ).loc main_v3) ↦{fullShare} Vend m c main_v3)) := by
  rw [held_tailS, ← Vend_v1_0 m c, ← Vend_v1_1 m c]
  rfl

set_option backward.isDefEq.respectTransparency.types false in
/-- EXIT: from the region's exit the two later lines run within the region's two results, the bias and their own two
    buffers, and hand everything back with the concatenation and the transpose written. -/
theorem htail (c : Dev nD) (Q' : PUnit → sProp 𝕄) :
    iprop((iprop((dats m 0 c).arrays ((dats m 0 c).arrAt · cfg0.N) ∗ Pipeline.unscopedRestP (Ix := Unit) (Name := ℕ) (U := UR sig nD τ) (Lvl := ℕ) Pipeline.Prefetch.none spec0 c (Vend m c)) -∗ Q' ⟨⟩)
        ∗ boundary (c : Thread nD τ) ∗ (dats m 0 c).arrays ((dats m 0 c).arrAt · cfg0.N) ∗ Pipeline.unscopedRestP (Ix := Unit) (Name := ℕ) (U := UR sig nD τ) (Lvl := ℕ) Pipeline.Prefetch.none spec0 c (V m c))
      ⊢ wp frame (wpE (Pipeline.defs (fun q => (cfgs q).toPCfg (Val := Elt F)) defs₀) (Variants.lift Variants.none) (c : Thread nD τ) none) Set.univ
          (Pipeline.chain [StableHlo.seq hostOps1]) Q' := by
  rw [arrays_eq7, rest_eq, rest_eq]
  rw [show ([StableHlo.seq hostOps1] : List (Prog (TpuEff nD τ sig (Elt F) (Pipeline.Sig Λ₀ (Fin 1) fun p => ((cfgs p).toPCfg (Val := Elt F)).Adm) .tc) PUnit))
      = ([hostOps1].map StableHlo.seq ++ []) from rfl]
  iintro ⟨Hk, Hb, ⟨A0, A1, A2, A3, A4, A5, A6⟩, ⟨R3, Rv2, Rv3⟩⟩
  iapply (Pipeline.wp_seqs_then (fun q => (cfgs q).toPCfg (Val := Elt F)) defs₀ Variants.none c tailS [] [hostOps1] tail_sub tail_fresh (Wt m c)) $$ [Hb A5 A6 R3 Rv2 Rv3]
  · isplitl [Hb]; · iexact Hb
    rw [held_Wt]
    isplitl [A5]; · iexact A5
    isplitl [A6]; · iexact A6
    isplitl [R3]; · iexact R3
    isplitl [Rv2]; · iexact Rv2
    iexact Rv3
  iintro Hb
  rw [Pipeline.chain_nil, wp_pure, held_after]
  imodintro
  iapply Hk
  icases Hb with ⟨-, ⟨B5, B6, B3, Bv2, Bv3⟩⟩
  isplitl [A0 A1 A2 A3 A4 B5 B6]
  · isplitl [A0]; · iexact A0
    isplitl [A1]; · iexact A1
    isplitl [A2]; · iexact A2
    isplitl [A3]; · iexact A3
    isplitl [A4]; · iexact A4
    isplitl [B5]; · iexact B5
    iexact B6
  isplitl [B3]; · iexact B3
  isplitl [Bv2]; · iexact Bv2
  iexact Bv3

/-- A buffer that is unscoped and no window's array bypasses the region. -/
theorem mem_rest (b : Ref sig .tc) (hs : b.isScoped = false) (ha : ∀ w, (spec0 w).arr.view.ref ≠ b) :
    b ∈ Pipeline.restRefsP sig Pipeline.Prefetch.none spec0 :=
  Finset.mem_sdiff.mpr ⟨Pipeline.mem_restRefs_of b hs ha, fun h => by obtain ⟨k, -, -⟩ := Finset.mem_image.mp h; exact k.elim0⟩

set_option backward.isDefEq.respectTransparency.types false in
/-- THE RUN. From any memory with zero counters every weakly fair execution of @main terminates; the transposed result
    ends at what the two later lines compute from the region's two results, every array of the pipeline at what the
    library computes from the proof data, and the bias as it was. -/
theorem run_main : θ_run (defs (F := F)) (onTc (τ := τ) (main (F := F))) ⟨m, fun _ => 0, ρ⟩ (fun r => ∀ c : Dev nD,
      r.2.mem ((c.tc : Thread nD τ).loc main_v3) = Vend m c main_v3
      ∧ (∀ w, r.2.mem ((spec0 w).arr.view.loc (c.tc : Thread nD τ)) = (dats m 0 c).arrAt w cfg0.N)
      ∧ r.2.mem ((c.tc : Thread nD τ).loc main_arg3) = V m c main_arg3) := by
  classical
  exact Pipeline.θ_run_region_pf_tail (fun q => (cfgs q).toPCfg (Val := Elt F)) (fun q => (cfgs q).toPCfg_adm) (dats m) () cellOf_inj 0
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m) (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (Vend m c))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => htail m c Q')
    (QY := fun c s => ∀ b ∈ Pipeline.restRefsP sig Pipeline.Prefetch.none spec0, s.mem ((c.tc : Thread nD τ).loc b) = Vend m c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (Vend m c) s')
      isplitl [HU] <;> iassumption)
    (hQ := fun s h c => ⟨(h c).2.2 main_v3 (mem_rest main_v3 rfl (by decide)), (h c).1,
      ((h c).2.2 main_arg3 (mem_rest main_arg3 rfl (by decide))).trans (Vend_arg3 m c)⟩)

/-! ## The argument arrays end as they began -/

theorem V_arg0 (c : Dev nD) : V m c main_arg0 = m ((c : Thread nD τ).loc main_arg0) := by
  dsimp only [V, V0]; simp only [hostOps0, List.flatten_cons, List.flatten_nil, List.append_nil]; after_results
theorem V_arg1 (c : Dev nD) : V m c main_arg1 = m ((c : Thread nD τ).loc main_arg1) := by
  dsimp only [V, V0]; simp only [hostOps0, List.flatten_cons, List.flatten_nil, List.append_nil]; after_results
theorem V_arg2 (c : Dev nD) : V m c main_arg2 = m ((c : Thread nD τ).loc main_arg2) := by
  dsimp only [V, V0]; simp only [hostOps0, List.flatten_cons, List.flatten_nil, List.append_nil]; after_results
theorem V_arg3 (c : Dev nD) : V m c main_arg3 = m ((c : Thread nD τ).loc main_arg3) := by
  dsimp only [V, V0]; simp only [hostOps0, List.flatten_cons, List.flatten_nil, List.append_nil]; after_results

/-- The run with the four argument arrays read back: a through either of its two windows, b and W through theirs
    (an input array is never written back), the bias among the buffers that bypass the region. -/
theorem run_args : θ_run (defs (F := F)) (onTc (τ := τ) (main (F := F))) ⟨m, fun _ => 0, ρ⟩ (fun r => ∀ c : Dev nD,
      r.2.mem ((c.tc : Thread nD τ).loc main_v3) = Vend m c main_v3
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1,
      ((h c).2.1 3).trans (((dats m 0 c).arrAt_in 3 rfl _).trans ((A_eq m c 3).trans (V_arg0 m c))),
      ((h c).2.1 0).trans (((dats m 0 c).arrAt_in 0 rfl _).trans ((A_eq m c 0).trans (V_arg1 m c))),
      ((h c).2.1 1).trans (((dats m 0 c).arrAt_in 1 rfl _).trans ((A_eq m c 1).trans (V_arg2 m c))),
      (h c).2.2.trans (V_arg3 m c)⟩) (run_main m ρ)

end Cert.Kernel.Hand

end
-- ==== Proof.Body.lean ====
/-
  The kernel body at one grid point, as two Hoare triples over whole staging buffers.

  The body keeps a 4096×32 array h in a scratch buffer. At the first grid point it stores h := b·W + bias there
  (the payload `k0_pay1` of the three small inputs); at every point it then reads h back and stores into its two
  output blocks the products of hᵀ with the transposes of two 512-row blocks of a (`k0_pay2`, `k0_pay3`).
  So at the first point the scratch ends at `k0_pay1 x1 x2 x3` whatever it held, and at a later point it is
  left as found; in both cases the two outputs end at the payloads of the scratch's value and the a-blocks,
  and every input buffer is left as found.
-/
import proofs.«132720_g11879879542422_cont_fleet_303_39_alg».proof.Proof.Gen.KernelIdeal.Launch
import proofs.«132720_g11879879542422_cont_fleet_303_39_alg».proof.Proof.Gen.KernelIdeal.Skeleton
import proofs.«132720_g11879879542422_cont_fleet_303_39_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The offset of a store that begins at the buffer's first element. -/
theorem off2_zero : (![0, 0] : Fin 2 → ℕ) = fun _ => 0 := by funext a; fin_cases a <;> rfl

/-- A buffer read back after one store through the rectangle that is the whole buffer holds the stored value,
    whatever it held before. -/
theorem read_store_whole {sig' : RefSig} {κ : Kind} {sp : Space} {S : Shape} {e : EltTy} {Val : EltTy → Type} [∀ e, Nonempty (Val e)]
    (v : View sig' κ sp S e) (f : v.ty.Contents Val) {off : Fin S.rank → ℕ} (h : off = fun _ => 0)
    (inb : ∀ a, off a + S.size a ≤ S.size a) (w : S.Idx → Val e) :
    v.read Val (v.writes Val f [(⟨Rect.unit off S.size inb, w⟩ : View.Piece Val S e)]) = w := by
  subst h
  rw [View.read_writes_eq_canon _ _ _ (fun y => ⟨_, List.mem_singleton_self _, by
    show y ∈ (Rect.whole S).set; rw [Rect.set_whole]; exact Finset.mem_univ y⟩), View.canon_unit_zero rfl]

/-- The branch condition of the body: the grid coordinate is zero. -/
abbrev isFirst (i : grid0.Coords) : Prop := (Scalar.cmpi .ne (Scalar.extui (Scalar.cmpi .eq (BitVec.ofNat 32 (i 0).val) 0#32)) 0#32) = 1#1

set_option maxHeartbeats 1000000 in
theorem body_first (c : Dev nD) (i : grid0.Coords)
    (arg1 : Memref sig .tc .vmem S4096x256 .f32) (harg1 : arg1.IsWhole) (arg2 : Memref sig .tc .vmem S256x32 .f32) (harg2 : arg2.IsWhole)
    (arg3 : Memref sig .tc .vmem S1x32 .f32) (harg3 : arg3.IsWhole) (arg4 : Memref sig .tc .vmem S512x4096 .f32) (harg4 : arg4.IsWhole)
    (arg5 : Memref sig .tc .vmem S512x4096 .f32) (harg5 : arg5.IsWhole) (arg6 : Memref sig .tc .vmem S32x512 .f32) (harg6 : arg6.IsWhole)
    (arg7 : Memref sig .tc .vmem S32x512 .f32) (harg7 : arg7.IsWhole) (arg8 : Memref sig .tc .vmem S4096x32 .f32) (harg8 : arg8.IsWhole)
    (hc : isFirst i)
    (x1 : Vec F S4096x256 .f32) (x2 : Vec F S256x32 .f32) (x3 : Vec F S1x32 .f32) (x4 x5 : Vec F S512x4096 .f32)
    (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (k0_pay2 (k0_pay1 x1 x2 x3) x4)
            ∗ owns (c : Thread nD τ) arg7 fullShare (k0_pay3 (k0_pay1 x1 x2 x3) x5)
            ∗ owns (c : Thread nD τ) arg8 fullShare (k0_pay1 x1 x2 x3)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8) K := by
  simp only [cc0__fused_kernel_eq_skeleton]; unfold cc0__fused_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := harg1.eq_unread hf1; obtain rfl := harg2.eq_unread hf2; obtain rfl := harg3.eq_unread hf3
  obtain rfl := harg4.eq_unread hf4; obtain rfl := harg5.eq_unread hf5
  sl_exec (disch := exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_words
    rw [read_store_whole _ _ off2_zero, View.readCov_unit_zero _ off2_zero]
    simp only [View.readAt_eq_ld, Memref.IsWhole.read_unread, View.ld_unit_zero (S := S4096x256) off2_zero, View.ld_unit_zero (S := S256x32) off2_zero, View.ld_unit_zero (S := S1x32) off2_zero, View.ld_unit_zero (S := S512x4096) off2_zero, View.ld_unit_zero (S := S4096x32) off2_zero]
  isplitl [H7]
  · iexists _; isplitr
    swap; · iexact H7
    ipureintro
    sl_unfold_words
    rw [read_store_whole _ _ off2_zero, View.readCov_unit_zero _ off2_zero]
    simp only [View.readAt_eq_ld, Memref.IsWhole.read_unread, View.ld_unit_zero (S := S4096x256) off2_zero, View.ld_unit_zero (S := S256x32) off2_zero, View.ld_unit_zero (S := S1x32) off2_zero, View.ld_unit_zero (S := S512x4096) off2_zero, View.ld_unit_zero (S := S4096x32) off2_zero]
  · iexists _; isplitr
    swap; · iexact H8
    ipureintro
    sl_unfold_words
    rw [read_store_whole _ _ off2_zero]
    simp only [View.readAt_eq_ld, Memref.IsWhole.read_unread, View.ld_unit_zero (S := S4096x256) off2_zero, View.ld_unit_zero (S := S256x32) off2_zero, View.ld_unit_zero (S := S1x32) off2_zero, View.ld_unit_zero (S := S512x4096) off2_zero, View.ld_unit_zero (S := S4096x32) off2_zero]

set_option maxHeartbeats 1000000 in
theorem body_later (c : Dev nD) (i : grid0.Coords)
    (arg1 : Memref sig .tc .vmem S4096x256 .f32) (harg1 : arg1.IsWhole) (arg2 : Memref sig .tc .vmem S256x32 .f32) (harg2 : arg2.IsWhole)
    (arg3 : Memref sig .tc .vmem S1x32 .f32) (harg3 : arg3.IsWhole) (arg4 : Memref sig .tc .vmem S512x4096 .f32) (harg4 : arg4.IsWhole)
    (arg5 : Memref sig .tc .vmem S512x4096 .f32) (harg5 : arg5.IsWhole) (arg6 : Memref sig .tc .vmem S32x512 .f32) (harg6 : arg6.IsWhole)
    (arg7 : Memref sig .tc .vmem S32x512 .f32) (harg7 : arg7.IsWhole) (arg8 : Memref sig .tc .vmem S4096x32 .f32) (harg8 : arg8.IsWhole)
    (hc : ¬ isFirst i)
    (x1 : Vec F S4096x256 .f32) (x2 : Vec F S256x32 .f32) (x3 : Vec F S1x32 .f32) (x4 x5 : Vec F S512x4096 .f32) (xs : Vec F S4096x32 .f32)
    (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ owns (c : Thread nD τ) arg8 fullShare xs
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (k0_pay2 xs x4)
            ∗ owns (c : Thread nD τ) arg7 fullShare (k0_pay3 xs x5)
            ∗ owns (c : Thread nD τ) arg8 fullShare xs) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8) K := by
  simp only [cc0__fused_kernel_eq_skeleton]; unfold cc0__fused_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, Hk⟩
  obtain rfl := harg1.eq_unread hf1; obtain rfl := harg2.eq_unread hf2; obtain rfl := harg3.eq_unread hf3
  obtain rfl := harg4.eq_unread hf4; obtain rfl := harg5.eq_unread hf5; obtain rfl := harg8.eq_unread hf8
  sl_exec (disch := exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_words
    rw [read_store_whole _ _ off2_zero]
    simp only [View.readAt_eq_ld, Memref.IsWhole.read_unread, View.ld_unit_zero (S := S4096x256) off2_zero, View.ld_unit_zero (S := S256x32) off2_zero, View.ld_unit_zero (S := S1x32) off2_zero, View.ld_unit_zero (S := S512x4096) off2_zero, View.ld_unit_zero (S := S4096x32) off2_zero]
  isplitl [H7]
  · iexists _; isplitr
    swap; · iexact H7
    ipureintro
    sl_unfold_words
    rw [read_store_whole _ _ off2_zero]
    simp only [View.readAt_eq_ld, Memref.IsWhole.read_unread, View.ld_unit_zero (S := S4096x256) off2_zero, View.ld_unit_zero (S := S256x32) off2_zero, View.ld_unit_zero (S := S1x32) off2_zero, View.ld_unit_zero (S := S512x4096) off2_zero, View.ld_unit_zero (S := S4096x32) off2_zero]
  · iexists _; isplitr; · ipureintro; exact harg8.read_unread _
    iexact H8

end Cert.KernelIdeal.Hand

end
-- ==== Proof.Data.lean ====
/-
  The proof data of the one pipeline and its body obligation.

  The region finds the argument arrays as the launch left them and the bias reshaped to 1×32 (`V`). Window w's
  block at grid point t is read off those (`iblk`): windows 0, 1, 2 (b, W, the bias row) are whole arrays at every
  point; windows 3 and 4 are rows [512 t, 512 t + 512) and [512 (t + 4), 512 (t + 4) + 512) of a; windows 5 and 6
  are columns [512 t, 512 t + 512) of the two 32×2048 results.
  The scratch holds h = b·W + bias (`hval`) from the first point on, the same value at every later point, so the
  invariant before a point other than the first names it, and after each point the two output buffers hold the
  payloads of h and the point's two a-blocks. The two windows on a each hold half of a's share.
-/
import proofs.«132720_g11879879542422_cont_fleet_303_39_alg».proof.Proof.Body

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents after the bias's reshape. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; first | rfl | repeat' constructor
theorem hostOps1_fresh : (hostOps1 : List (HloOp τ sig (Elt F))).Forall fun op => op.fresh = ∅ := by
  simp only [List.Forall]; repeat' constructor

/-- @main is the reshape, the region, then the concatenation and the transposition: it reduces to the region
    continued by the two later lines, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The staging memrefs at a point, as the pipeline passes them -/

abbrev ms0 (t : Fin cfg0.N) : Memref sig .tc .vmem S4096x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x32 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x32 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x4096 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x4096 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S32x512 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S32x512 .f32 := win0_6.stage (cfg0.slots t 6)
abbrev hs6 (t : Fin cfg0.N) : (ms6 t).IsWhole := hstage0_6 ((cfg0.slots t 6).cast nbuf0_6)
/-- The scratch operand: a whole scoped buffer of the kernel's own. -/
abbrev scM : Memref sig .tc .vmem S4096x32 .f32 := Memref.whole cc0_scratch0

/-- The branch condition holds at the first grid point only. -/
theorem hfirst : ∀ t : Fin cfg0.N, isFirst (grid0.coords t) ↔ t.val = 0 :=
  (by decide +kernel : ∀ t : Fin grid0.N, isFirst (grid0.coords t) ↔ t.val = 0)

/-- The class's invariant with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The proof data -/

/-- h = b·W + bias, as the first point computes it from the three small windows' blocks. -/
def hval (c : Dev nD) : Vec F S4096x32 .f32 := k0_pay1 (iblk m c 0 t0_0) (iblk m c 1 t0_0) (iblk m c 2 t0_0)

/-- The invariant before position `n`: before the first point the class's (the scratch at anything); afterwards the
    scratch at h and the generator register at some state. -/
def PhiS (c : Dev nD) : ℕ → sProp 𝕄
  | 0 => Pipeline.ΦA spec0 c
  | _ + 1 => iprop(iprop(owns (c : Thread nD τ) scM fullShare (hval m c)) ∗ (∃ r, prngReg c r))

theorem PhiS_pos (c : Dev nD) (n : ℕ) (hz : n ≠ 0) :
    PhiS m c n = iprop(iprop(owns (c : Thread nD τ) scM fullShare (hval m c)) ∗ (∃ r, prngReg c r)) := by
  cases n with
  | zero => exact absurd rfl hz
  | succ n => rfl

/-- The proof data on core `c`: the arrays as the region finds them; after the body at point `t` each input's buffer at
    its block and the two outputs' at the payloads of h and the point's a-blocks; the invariant `PhiS`; nothing owed;
    the two windows on a at the two halves of its share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay2 (hval m c) (iblk m c 3 t)
    | ⟨6, _⟩ => k0_pay3 (hval m c) (iblk m c 4 t)
  Φ t := PhiS m c t.val
  q w := match w with
    | ⟨3, _⟩ => fullShare.left
    | ⟨4, _⟩ => fullShare.right
    | _ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = k0_pay2 (hval m c) (iblk m c 3 t) := by dsimp only [dats]
theorem after6 (c : Dev nD) (t : Fin cfg0.N) : (dats m 0 c).after 6 t = k0_pay3 (hval m c) (iblk m c 4 t) := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

set_option maxHeartbeats 2000000 in
/-- The body at any point: the inputs' buffers hold their blocks; at the first point the scratch is handed over at
    anything and taken back at h, at a later point it is handed over and taken back at h. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, after0, after1, after2, after3, after4, after5, after6]
  rw [show (dats m 0 c).owesAt () t.succ = (dats m 0 c).owesAt () t.castSucc from rfl]
  rw [show (dats m 0 c).Φ t.succ = iprop(iprop(owns (c : Thread nD τ) scM fullShare (hval m c)) ∗ (∃ r, prngReg c r)) from rfl]
  rw [show (dats m 0 c).Φ t.castSucc = PhiS m c t.val from rfl]
  by_cases hz : t.val = 0
  · obtain rfl : t = t0_0 := Fin.ext hz
    rw [show PhiS m c (t0_0 : Fin cfg0.N).val = Pipeline.ΦA spec0 c from rfl, PhiA_eq]
    unfold hval
    iintro ⟨⟨HS, Hg⟩, Ho, H0, H1, H2, H3, H4, H5, H6⟩
    icases H0 with ⟨%d0, H0⟩; icases H1 with ⟨%d1, H1⟩; icases H2 with ⟨%d2, H2⟩; icases H3 with ⟨%d3, H3⟩; icases H4 with ⟨%d4, H4⟩
    iapply (body_first c (grid0.coords t0_0) (ms0 t0_0) (hs0 t0_0) (ms1 t0_0) (hs1 t0_0) (ms2 t0_0) (hs2 t0_0) (ms3 t0_0) (hs3 t0_0)
      (ms4 t0_0) (hs4 t0_0) (ms5 t0_0) (hs5 t0_0) (ms6 t0_0) (hs6 t0_0) scM (Memref.isWhole_whole _) ((hfirst t0_0).mpr rfl)
      (iblk m c 0 t0_0) (iblk m c 1 t0_0) (iblk m c 2 t0_0) (iblk m c 3 t0_0) (iblk m c 4 t0_0) Set.univ _)
    isplitl [H0]; · iexact H0
    isplitl [H1]; · iexact H1
    isplitl [H2]; · iexact H2
    isplitl [H3]; · iexact H3
    isplitl [H4]; · iexact H4
    isplitl [H5]; · icases H5 with ⟨%d5, H5⟩; iexists _; iexact H5
    isplitl [H6]; · icases H6 with ⟨%d6, H6⟩; iexists _; iexact H6
    isplitl [HS]; · iexact HS
    iintro ⟨H0, H1, H2, H3, H4, H5, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [PhiS_pos m c _ hz]
    iintro ⟨⟨HS, Hg⟩, Ho, H0, H1, H2, H3, H4, H5, H6⟩
    icases H0 with ⟨%d0, H0⟩; icases H1 with ⟨%d1, H1⟩; icases H2 with ⟨%d2, H2⟩; icases H3 with ⟨%d3, H3⟩; icases H4 with ⟨%d4, H4⟩
    iapply (body_later c (grid0.coords t) (ms0 t) (hs0 t) (ms1 t) (hs1 t) (ms2 t) (hs2 t) (ms3 t) (hs3 t)
      (ms4 t) (hs4 t) (ms5 t) (hs5 t) (ms6 t) (hs6 t) scM (Memref.isWhole_whole _) (fun h => hz ((hfirst t).mp h))
      (iblk m c 0 t) (iblk m c 1 t) (iblk m c 2 t) (iblk m c 3 t) (iblk m c 4 t) (hval m c) Set.univ _)
    isplitl [H0]; · iexact H0
    isplitl [H1]; · iexact H1
    isplitl [H2]; · iexact H2
    isplitl [H3]; · iexact H3
    isplitl [H4]; · iexact H4
    isplitl [H5]; · icases H5 with ⟨%d5, H5⟩; iexists _; iexact H5
    isplitl [H6]; · icases H6 with ⟨%d6, H6⟩; iexists _; iexact H6
    isplitl [HS]; · iexact HS
    iintro ⟨H0, H1, H2, H3, H4, H5, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Pipeline.ΦA spec0 c from rfl]

/-- After the last point the invariant gives the class's back: the scratch's named contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 4 := N_0; omega), PhiA_eq]
  iintro ⟨HS, Hg⟩
  isplitl [HS]
  · iexists _; iexact HS
  iexact Hg

end Cert.KernelIdeal.Hand

end
-- ==== Proof.Run.lean ====
/-
  The run of @main: the reshape of the bias, the region, the concatenation and the transposition.

  Two of the pipeline's windows read the one array a (rows [512 t, 512 t + 512) and rows [512 (t + 4), 512 (t + 4) + 512) at
  point t), so the launch is taken by its fields: at the region's entry a's full share is split into its two halves,
  one per window (`hsplit`); both windows being inputs, each half is handed back at the entry contents. The two lines after
  the region read the two 32×2048 results the region wrote and write the 32×4096 concatenation and its 4096×32 transpose;
  they run within those four buffers and the bias (`htail`). The run's post names the transposed result and says that
  the four argument arrays end as they began.
-/
import proofs.«132720_g11879879542422_cont_fleet_303_39_alg».proof.Proof.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays, one by one -/

/-- The distinct buffers behind the seven windows' arrays: six, a being read by two windows. -/
theorem arrBufs_eq (c : Dev nD) (W : (b : Ref sig .tc) → Buf (Elt F) ((c : Thread nD τ).loc b)) :
    (Pipeline.arrBufs spec0 c W : sProp 𝕄)
      = iprop((((c : Thread nD τ).loc main_arg1) ↦{fullShare} W main_arg1) ∗ (((c : Thread nD τ).loc main_arg2) ↦{fullShare} W main_arg2)
          ∗ (((c : Thread nD τ).loc main_v0) ↦{fullShare} W main_v0) ∗ (((c : Thread nD τ).loc main_arg0) ↦{fullShare} W main_arg0)
          ∗ (((c : Thread nD τ).loc main_v1_0) ↦{fullShare} W main_v1_0) ∗ (((c : Thread nD τ).loc main_v1_1) ↦{fullShare} W main_v1_1)) := by
  unfold Pipeline.arrBufs
  exact bigSep_eq_bigSepL_of_eq [main_arg1, main_arg2, main_v0, main_arg0, main_v1_0, main_v1_1] (by decide) (by decide) _

/-- The proof data's arrays, window by window: the two windows on a at the two halves of its share. -/
theorem arrays_eq7 (c : Dev nD) (A : (w : Fin cfg0.W) → Buf (Elt F) ((cfg0.win w).arr.view.loc (c : Thread nD τ))) :
    ((dats m 0 c).arrays A : sProp 𝕄)
      = iprop((((c : Thread nD τ).loc main_arg1) ↦{fullShare} A 0) ∗ (((c : Thread nD τ).loc main_arg2) ↦{fullShare} A 1)
          ∗ (((c : Thread nD τ).loc main_v0) ↦{fullShare} A 2)
          ∗ (((c : Thread nD τ).loc main_arg0) ↦{fullShare.left} A 3) ∗ (((c : Thread nD τ).loc main_arg0) ↦{fullShare.right} A 4)
          ∗ (((c : Thread nD τ).loc main_v1_0) ↦{fullShare} A 5) ∗ (((c : Thread nD τ).loc main_v1_1) ↦{fullShare} A 6)) := by
  unfold Dat.arrays
  rw [bigSep_W0]
  rw [(arr_whole0 0).set_eq_univ, (arr_whole0 1).set_eq_univ, (arr_whole0 2).set_eq_univ, (arr_whole0 3).set_eq_univ,
    (arr_whole0 5).set_eq_univ, (arr_whole0 6).set_eq_univ]
  rfl

/-- ENTRY: the six buffers at the region-entry contents are the proof data's arrays there, a's share halved. -/
theorem hsplit (c : Dev nD) : (Pipeline.arrBufs spec0 c (V m c) : sProp 𝕄) ⊢ (dats m 0 c).arrays ((dats m 0 c).arrAt · 0) := by
  rw [arrBufs_eq, arrays_eq7]
  iintro ⟨H1, H2, H0v, Ha, H5, H6⟩
  isplitl [H1]; · iexact H1
  isplitl [H2]; · iexact H2
  isplitl [H0v]; · iexact H0v
  ihave Hs := (pointsTo_share (PosShare.mem_left_op_right fullShare)).1 $$ Ha
  icases Hs with ⟨Hl, Hr⟩
  isplitl [Hl]; · iexact Hl
  isplitl [Hr]; · iexact Hr
  isplitl [H5]; · iexact H5
  iexact H6

/-! ## The two lines after the region -/

/-- The buffers the two later lines run within: the two results of the region, the bias, the concatenation, the transpose. -/
def tailS : Finset (DevRef τ sig) :=
  ([Proc.devRef .tc main_v1_0, Proc.devRef .tc main_v1_1, Proc.devRef .tc main_arg3, Proc.devRef .tc main_v2, Proc.devRef .tc main_v3] : List (DevRef τ sig)).toFinset

/-- The contents the later lines start from: the region-entry contents with the region's two results in place. -/
def Wt (c : Dev nD) : Valuation τ sig (Elt F) :=
  Function.update (Function.update (V0 m c) (Proc.devRef .tc main_v1_0) ((dats m 0 c).arrAt 5 cfg0.N))
    (Proc.devRef .tc main_v1_1) ((dats m 0 c).arrAt 6 cfg0.N)

theorem Wt_v1_1 (c : Dev nD) : Wt m c (Proc.devRef .tc main_v1_1) = (dats m 0 c).arrAt 6 cfg0.N := by
  unfold Wt; rw [Function.update_self]
theorem Wt_v1_0 (c : Dev nD) : Wt m c (Proc.devRef .tc main_v1_0) = (dats m 0 c).arrAt 5 cfg0.N := by
  unfold Wt; rw [Function.update_of_ne (StableHlo.devRef_ne_of_ne (by decide)), Function.update_self]
theorem Wt_other (c : Dev nD) (b : Ref sig .tc) (h5 : b ≠ main_v1_0) (h6 : b ≠ main_v1_1) :
    Wt m c (Proc.devRef .tc b) = V m c b := by
  unfold Wt; rw [Function.update_of_ne (StableHlo.devRef_ne_of_ne h6), Function.update_of_ne (StableHlo.devRef_ne_of_ne h5)]

/-- The contents after the two later lines, read at a TensorCore reference. -/
def Vend (c : Dev nD) (b : Ref sig .tc) : Buf (Elt F) ((c : Thread nD τ).loc b) :=
  StableHlo.after (List.flatten [hostOps1]) (Wt m c) (Proc.devRef .tc b)

theorem held_tailS (c : Dev nD) (W : Valuation τ sig (Elt F)) :
    (StableHlo.held (c : Thread nD τ) tailS W : sProp 𝕄)
      = iprop((((c : Thread nD τ).loc main_v1_0) ↦{fullShare} W (Proc.devRef .tc main_v1_0)) ∗ (((c : Thread nD τ).loc main_v1_1) ↦{fullShare} W (Proc.devRef .tc main_v1_1))
          ∗ (((c : Thread nD τ).loc main_arg3) ↦{fullShare} W (Proc.devRef .tc main_arg3)) ∗ (((c : Thread nD τ).loc main_v2) ↦{fullShare} W (Proc.devRef .tc main_v2))
          ∗ (((c : Thread nD τ).loc main_v3) ↦{fullShare} W (Proc.devRef .tc main_v3))) := by
  unfold StableHlo.held tailS
  exact bigSep_eq_bigSepL_of_eq _ rfl (by decide) _

theorem tail_sub : ∀ ops ∈ ([hostOps1] : List (List (HloOp τ sig (Elt F)))), ∀ op ∈ ops, op.bufs ⊆ tailS := by
  intro ops hops op hop
  simp only [List.mem_cons, List.mem_nil_iff, or_false] at hops
  subst hops
  simp only [hostOps1, List.mem_cons, List.mem_nil_iff, or_false] at hop
  rcases hop with rfl | rfl
  · rw [StableHlo.binary_bufs]; intro b hb
    simp only [Finset.mem_insert, Finset.mem_singleton] at hb
    rcases hb with rfl | rfl | rfl <;> simp [tailS]
  · rw [StableHlo.unary_bufs]; intro b hb
    simp only [Finset.mem_insert, Finset.mem_singleton] at hb
    rcases hb with rfl | rfl <;> simp [tailS]

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- The later lines leave the region's two results in place, -/
theorem Vend_v1_0 (c : Dev nD) : Vend m c main_v1_0 = (dats m 0 c).arrAt 5 cfg0.N := by
  unfold Vend; simp only [List.flatten_cons, List.flatten_nil, List.append_nil]
  rw [StableHlo.after_of_forall_not_mem _ _ (fun op hop => ?_), Wt_v1_0]
  simp only [hostOps1, List.mem_cons, List.mem_nil_iff, or_false] at hop
  rcases hop with rfl | rfl <;> simp only [StableHlo.unary_writes, StableHlo.binary_writes, Finset.mem_singleton] <;> exact StableHlo.devRef_ne_of_ne (by decide)
theorem Vend_v1_1 (c : Dev nD) : Vend m c main_v1_1 = (dats m 0 c).arrAt 6 cfg0.N := by
  unfold Vend; simp only [List.flatten_cons, List.flatten_nil, List.append_nil]
  rw [StableHlo.after_of_forall_not_mem _ _ (fun op hop => ?_), Wt_v1_1]
  simp only [hostOps1, List.mem_cons, List.mem_nil_iff, or_false] at hop
  rcases hop with rfl | rfl <;> simp only [StableHlo.unary_writes, StableHlo.binary_writes, Finset.mem_singleton] <;> exact StableHlo.devRef_ne_of_ne (by decide)
/-- and the bias too. -/
theorem Vend_arg3 (c : Dev nD) : Vend m c main_arg3 = V m c main_arg3 := by
  unfold Vend; simp only [List.flatten_cons, List.flatten_nil, List.append_nil]
  rw [StableHlo.after_of_forall_not_mem _ _ (fun op hop => ?_), Wt_other m c main_arg3 (by decide) (by decide)]
  simp only [hostOps1, List.mem_cons, List.mem_nil_iff, or_false] at hop
  rcases hop with rfl | rfl <;> simp only [StableHlo.unary_writes, StableHlo.binary_writes, Finset.mem_singleton] <;> exact StableHlo.devRef_ne_of_ne (by decide)

/-- The buffers that bypass the region, one by one. -/
theorem rest_eq (c : Dev nD) (W : (b : Ref sig .tc) → Buf (Elt F) ((c : Thread nD τ).loc b)) :
    (Pipeline.unscopedRestP (Ix := Unit) (Name := ℕ) (U := UR sig nD τ) (Lvl := ℕ) Pipeline.Prefetch.none spec0 c W : sProp 𝕄)
      = iprop((((c : Thread nD τ).loc main_arg3) ↦{fullShare} W main_arg3) ∗ (((c : Thread nD τ).loc main_v2) ↦{fullShare} W main_v2) ∗ (((c : Thread nD τ).loc main_v3) ↦{fullShare} W main_v3)) := by
  rw [Pipeline.unscopedRestP_none, unscopedRest0_eq]

end Cert.KernelIdeal.Hand

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem held_Wt (c : Dev nD) :
    (StableHlo.held (c : Thread nD τ) tailS (Wt m c) : sProp 𝕄)
      = iprop((((c : Thread nD τ).loc main_v1_0) ↦{fullShare} (dats m 0 c).arrAt 5 cfg0.N) ∗ (((c : Thread nD τ).loc main_v1_1) ↦{fullShare} (dats m 0 c).arrAt 6 cfg0.N)
          ∗ (((c : Thread nD τ).loc main_arg3) ↦{fullShare} V m c main_arg3) ∗ (((c : Thread nD τ).loc main_v2) ↦{fullShare} V m c main_v2)
          ∗ (((c : Thread nD τ).loc main_v3) ↦{fullShare} V m c main_v3)) := by
  rw [held_tailS, Wt_v1_0, Wt_v1_1, Wt_other m c main_arg3 (by decide) (by decide), Wt_other m c main_v2 (by decide) (by decide),
    Wt_other m c main_v3 (by decide) (by decide)]

theorem held_after (c : Dev nD) :
    (StableHlo.held (c : Thread nD τ) tailS (StableHlo.after (List.flatten [hostOps1]) (Wt m c)) : sProp 𝕄)
      = iprop((((c : Thread nD τ).loc main_v1_0) ↦{fullShare} (dats m 0 c).arrAt 5 cfg0.N) ∗ (((c : Thread nD τ).loc main_v1_1) ↦{fullShare} (dats m 0 c).arrAt 6 cfg0.N)
          ∗ (((c : Thread nD τ).loc main_arg3) ↦{fullShare} Vend m c main_arg3) ∗ (((c : Thread nD τ).loc main_v2) ↦{fullShare} Vend m c main_v2)
          ∗ (((c : Thread nD τ).loc main_v3) ↦{fullShare} Vend m c main_v3)) := by
  rw [held_tailS, ← Vend_v1_0 m c, ← Vend_v1_1 m c]
  rfl

set_option backward.isDefEq.respectTransparency.types false in
/-- EXIT: from the region's exit the two later lines run within the region's two results, the bias and their own two
    buffers, and hand everything back with the concatenation and the transpose written. -/
theorem htail (c : Dev nD) (Q' : PUnit → sProp 𝕄) :
    iprop((iprop((dats m 0 c).arrays ((dats m 0 c).arrAt · cfg0.N) ∗ Pipeline.unscopedRestP (Ix := Unit) (Name := ℕ) (U := UR sig nD τ) (Lvl := ℕ) Pipeline.Prefetch.none spec0 c (Vend m c)) -∗ Q' ⟨⟩)
        ∗ boundary (c : Thread nD τ) ∗ (dats m 0 c).arrays ((dats m 0 c).arrAt · cfg0.N) ∗ Pipeline.unscopedRestP (Ix := Unit) (Name := ℕ) (U := UR sig nD τ) (Lvl := ℕ) Pipeline.Prefetch.none spec0 c (V m c))
      ⊢ wp frame (wpE (Pipeline.defs (fun q => (cfgs q).toPCfg (Val := Elt F)) defs₀) (Variants.lift Variants.none) (c : Thread nD τ) none) Set.univ
          (Pipeline.chain [StableHlo.seq hostOps1]) Q' := by
  rw [arrays_eq7, rest_eq, rest_eq]
  rw [show ([StableHlo.seq hostOps1] : List (Prog (TpuEff nD τ sig (Elt F) (Pipeline.Sig Λ₀ (Fin 1) fun p => ((cfgs p).toPCfg (Val := Elt F)).Adm) .tc) PUnit))
      = ([hostOps1].map StableHlo.seq ++ []) from rfl]
  iintro ⟨Hk, Hb, ⟨A0, A1, A2, A3, A4, A5, A6⟩, ⟨R3, Rv2, Rv3⟩⟩
  iapply (Pipeline.wp_seqs_then (fun q => (cfgs q).toPCfg (Val := Elt F)) defs₀ Variants.none c tailS [] [hostOps1] tail_sub tail_fresh (Wt m c)) $$ [Hb A5 A6 R3 Rv2 Rv3]
  · isplitl [Hb]; · iexact Hb
    rw [held_Wt]
    isplitl [A5]; · iexact A5
    isplitl [A6]; · iexact A6
    isplitl [R3]; · iexact R3
    isplitl [Rv2]; · iexact Rv2
    iexact Rv3
  iintro Hb
  rw [Pipeline.chain_nil, wp_pure, held_after]
  imodintro
  iapply Hk
  icases Hb with ⟨-, ⟨B5, B6, B3, Bv2, Bv3⟩⟩
  isplitl [A0 A1 A2 A3 A4 B5 B6]
  · isplitl [A0]; · iexact A0
    isplitl [A1]; · iexact A1
    isplitl [A2]; · iexact A2
    isplitl [A3]; · iexact A3
    isplitl [A4]; · iexact A4
    isplitl [B5]; · iexact B5
    iexact B6
  isplitl [B3]; · iexact B3
  isplitl [Bv2]; · iexact Bv2
  iexact Bv3

/-- A buffer that is unscoped and no window's array bypasses the region. -/
theorem mem_rest (b : Ref sig .tc) (hs : b.isScoped = false) (ha : ∀ w, (spec0 w).arr.view.ref ≠ b) :
    b ∈ Pipeline.restRefsP sig Pipeline.Prefetch.none spec0 :=
  Finset.mem_sdiff.mpr ⟨Pipeline.mem_restRefs_of b hs ha, fun h => by obtain ⟨k, -, -⟩ := Finset.mem_image.mp h; exact k.elim0⟩

set_option backward.isDefEq.respectTransparency.types false in
/-- THE RUN. From any memory with zero counters every weakly fair execution of @main terminates; the transposed result
    ends at what the two later lines compute from the region's two results, every array of the pipeline at what the
    library computes from the proof data, and the bias as it was. -/
theorem run_main : θ_run (defs (F := F)) (onTc (τ := τ) (main (F := F))) ⟨m, fun _ => 0, ρ⟩ (fun r => ∀ c : Dev nD,
      r.2.mem ((c.tc : Thread nD τ).loc main_v3) = Vend m c main_v3
      ∧ (∀ w, r.2.mem ((spec0 w).arr.view.loc (c.tc : Thread nD τ)) = (dats m 0 c).arrAt w cfg0.N)
      ∧ r.2.mem ((c.tc : Thread nD τ).loc main_arg3) = V m c main_arg3) := by
  classical
  exact Pipeline.θ_run_region_pf_tail (fun q => (cfgs q).toPCfg (Val := Elt F)) (fun q => (cfgs q).toPCfg_adm) (dats m) () cellOf_inj 0
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m) (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (Vend m c))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => htail m c Q')
    (QY := fun c s => ∀ b ∈ Pipeline.restRefsP sig Pipeline.Prefetch.none spec0, s.mem ((c.tc : Thread nD τ).loc b) = Vend m c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (Vend m c) s')
      isplitl [HU] <;> iassumption)
    (hQ := fun s h c => ⟨(h c).2.2 main_v3 (mem_rest main_v3 rfl (by decide)), (h c).1,
      ((h c).2.2 main_arg3 (mem_rest main_arg3 rfl (by decide))).trans (Vend_arg3 m c)⟩)

/-! ## The argument arrays end as they began -/

theorem V_arg0 (c : Dev nD) : V m c main_arg0 = m ((c : Thread nD τ).loc main_arg0) := by
  dsimp only [V, V0]; simp only [hostOps0, List.flatten_cons, List.flatten_nil, List.append_nil]; after_results
theorem V_arg1 (c : Dev nD) : V m c main_arg1 = m ((c : Thread nD τ).loc main_arg1) := by
  dsimp only [V, V0]; simp only [hostOps0, List.flatten_cons, List.flatten_nil, List.append_nil]; after_results
theorem V_arg2 (c : Dev nD) : V m c main_arg2 = m ((c : Thread nD τ).loc main_arg2) := by
  dsimp only [V, V0]; simp only [hostOps0, List.flatten_cons, List.flatten_nil, List.append_nil]; after_results
theorem V_arg3 (c : Dev nD) : V m c main_arg3 = m ((c : Thread nD τ).loc main_arg3) := by
  dsimp only [V, V0]; simp only [hostOps0, List.flatten_cons, List.flatten_nil, List.append_nil]; after_results

/-- The run with the four argument arrays read back: a through either of its two windows, b and W through theirs
    (an input array is never written back), the bias among the buffers that bypass the region. -/
theorem run_args : θ_run (defs (F := F)) (onTc (τ := τ) (main (F := F))) ⟨m, fun _ => 0, ρ⟩ (fun r => ∀ c : Dev nD,
      r.2.mem ((c.tc : Thread nD τ).loc main_v3) = Vend m c main_v3
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1,
      ((h c).2.1 3).trans (((dats m 0 c).arrAt_in 3 rfl _).trans ((A_eq m c 3).trans (V_arg0 m c))),
      ((h c).2.1 0).trans (((dats m 0 c).arrAt_in 0 rfl _).trans ((A_eq m c 0).trans (V_arg1 m c))),
      ((h c).2.1 1).trans (((dats m 0 c).arrAt_in 1 rfl _).trans ((A_eq m c 1).trans (V_arg2 m c))),
      (h c).2.2.trans (V_arg3 m c)⟩) (run_main m ρ)

end Cert.KernelIdeal.Hand

end
-- ==== Proof.Pay.lean ====
/-
  The body's three payloads read at an index, over the extended reals.

  `k0_pay1 x1 x2 x3` at (p, q) is (Σ_l x1[p, l] · x2[l, q]) + x3[0, q]: a matrix product into a zero accumulator plus a
  1×32 row broadcast down the 4096 rows. `k0_pay2 h x` (and `k0_pay3`, the same operation) at (q, r) is
  Σ_k h[k, q] · x[r, k]: the product contracts h's ROW axis with x's COLUMN axis, i.e. it is hᵀ · xᵀ.
-/
import proofs.«132720_g11879879542422_cont_fleet_303_39_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.SL.Sem
open Idealize.ShloMosaic.ValueIdx
open Cert.KernelIdeal Cert.KernelIdeal.Gen

/-! ## The first product's operand indices: rows × contraction, contraction × columns -/

theorem d1_lhs0 (i : S4096x32.Idx) (q : dot_S4096x256_S256x32_S4096x32_1_0_0_1_n_n.contr.Idx) : (dot_S4096x256_S256x32_S4096x32_1_0_0_1_n_n.lhsIdx i q 0).val = (i 0).val := by
  unfold DotDims.lhsIdx
  rw [dif_neg (show ¬(0 : Fin S4096x256.rank) ∈ dot_S4096x256_S256x32_S4096x32_1_0_0_1_n_n.lhsBatch by decide), dif_pos (show (0 : Fin S4096x256.rank) ∈ dot_S4096x256_S256x32_S4096x32_1_0_0_1_n_n.lhsNonContracting by decide)]
  rfl
theorem d1_lhs1 (i : S4096x32.Idx) (q : dot_S4096x256_S256x32_S4096x32_1_0_0_1_n_n.contr.Idx) : (dot_S4096x256_S256x32_S4096x32_1_0_0_1_n_n.lhsIdx i q 1).val = (q ⟨0, by decide⟩).val :=
  dot_S4096x256_S256x32_S4096x32_1_0_0_1_n_n.lhsIdx_val_of_single rfl i q
theorem d1_rhs0 (i : S4096x32.Idx) (q : dot_S4096x256_S256x32_S4096x32_1_0_0_1_n_n.contr.Idx) : (dot_S4096x256_S256x32_S4096x32_1_0_0_1_n_n.rhsIdx i q 0).val = (q ⟨0, by decide⟩).val :=
  dot_S4096x256_S256x32_S4096x32_1_0_0_1_n_n.rhsIdx_val_of_single rfl i q
theorem d1_rhs1 (i : S4096x32.Idx) (q : dot_S4096x256_S256x32_S4096x32_1_0_0_1_n_n.contr.Idx) : (dot_S4096x256_S256x32_S4096x32_1_0_0_1_n_n.rhsIdx i q 1).val = (i 1).val := by
  unfold DotDims.rhsIdx
  rw [dif_neg (show ¬(1 : Fin S256x32.rank) ∈ dot_S4096x256_S256x32_S4096x32_1_0_0_1_n_n.rhsBatch by decide), dif_pos (show (1 : Fin S256x32.rank) ∈ dot_S4096x256_S256x32_S4096x32_1_0_0_1_n_n.rhsNonContracting by decide)]
  rfl

/-- The first product into a zero accumulator, at (p, q): Σ_l x1[p, l] · x2[l, q]. -/
theorem mm1_apply (x1 : Vec Ideal S4096x256 .f32) (x2 : Vec Ideal S256x32 .f32) (p : Fin 4096) (q : Fin 32) :
    matmul (F := Ideal) (φ₁ := .f32) (φ₂ := .f32) dot_S4096x256_S256x32_S4096x32_1_0_0_1_n_n none x1 x2 (constant (F := Ideal) S4096x32 .f32 0x00000000#32) (ix2 p q)
      = ∑ l : Fin 256, x1 (ix2 p l) * x2 (ix2 l q) := by
  show FloatOps.matmul (φ₁ := .f32) (φ₂ := .f32) dot_S4096x256_S256x32_S4096x32_1_0_0_1_n_n none x1 x2 (constant (F := Ideal) S4096x32 .f32 0x00000000#32) (ix2 p q) = _
  rw [Ideal.matmul_constant_zero_apply, ← Equiv.sum_comp (ValueIdx.contrEquiv1 dot_S4096x256_S256x32_S4096x32_1_0_0_1_n_n 256 rfl rfl).symm]
  refine Finset.sum_congr rfl fun k _ => ?_
  have hk := ValueIdx.contrEquiv1_symm_val dot_S4096x256_S256x32_S4096x32_1_0_0_1_n_n 256 rfl rfl k
  have el : dot_S4096x256_S256x32_S4096x32_1_0_0_1_n_n.lhsIdx (ix2 p q) ((ValueIdx.contrEquiv1 dot_S4096x256_S256x32_S4096x32_1_0_0_1_n_n 256 rfl rfl).symm k) = ix2 p k := funext fun a => Fin.ext (by
    match a with
    | ⟨0, _⟩ => exact d1_lhs0 _ _
    | ⟨1, _⟩ => exact (d1_lhs1 _ _).trans hk)
  have er : dot_S4096x256_S256x32_S4096x32_1_0_0_1_n_n.rhsIdx (ix2 p q) ((ValueIdx.contrEquiv1 dot_S4096x256_S256x32_S4096x32_1_0_0_1_n_n 256 rfl rfl).symm k) = ix2 k q := funext fun a => Fin.ext (by
    match a with
    | ⟨0, _⟩ => exact (d1_rhs0 _ _).trans hk
    | ⟨1, _⟩ => exact d1_rhs1 _ _)
  rw [el, er]

/-- h's payload at (p, q): the product plus the bias row's q-th entry. -/
theorem pay1_apply (x1 : Vec Ideal S4096x256 .f32) (x2 : Vec Ideal S256x32 .f32) (x3 : Vec Ideal S1x32 .f32) (p : Fin 4096) (q : Fin 32) :
    k0_pay1 (F := Ideal) x1 x2 x3 (ix2 p q) = (∑ l : Fin 256, x1 (ix2 p l) * x2 (ix2 l q)) + x3 (ix2 0 q) := by
  show shapeCast S4096x32 (addf (matmul (F := Ideal) (φ₁ := .f32) (φ₂ := .f32) dot_S4096x256_S256x32_S4096x32_1_0_0_1_n_n none x1 x2 (constant (F := Ideal) S4096x32 .f32 0x00000000#32))
      (broadcastTo S4096x32 (shapeCast S1x32 x3 Facts₀.shapeCasts_S1x32_S1x32) Facts₀.broadcasts_S1x32_S4096x32)) Facts₀.shapeCasts_S4096x32_S4096x32 (ix2 p q) = _
  rw [shapeCast_self, addf_apply, mm1_apply, shapeCast_self]
  congr 1
  exact broadcastTo_apply x3 Facts₀.broadcasts_S1x32_S4096x32 (ix2 p q) (ix2 0 q) (fun a => match a with
    | ⟨0, _⟩ => by show 0 = if (1 : Nat) = 1 then 0 else _; rw [if_pos rfl]
    | ⟨1, _⟩ => by show q.val = if (32 : Nat) = 1 then 0 else q.val; rw [if_neg (by decide)])

/-! ## The second product's operand indices: it contracts h's row axis with the block's column axis -/

theorem d2_lhs0 (i : S32x512.Idx) (q : dot_S4096x32_S512x4096_S32x512_0_1_1_0_n_n.contr.Idx) : (dot_S4096x32_S512x4096_S32x512_0_1_1_0_n_n.lhsIdx i q 0).val = (q ⟨0, by decide⟩).val :=
  dot_S4096x32_S512x4096_S32x512_0_1_1_0_n_n.lhsIdx_val_of_single rfl i q
theorem d2_lhs1 (i : S32x512.Idx) (q : dot_S4096x32_S512x4096_S32x512_0_1_1_0_n_n.contr.Idx) : (dot_S4096x32_S512x4096_S32x512_0_1_1_0_n_n.lhsIdx i q 1).val = (i 0).val := by
  unfold DotDims.lhsIdx
  rw [dif_neg (show ¬(1 : Fin S4096x32.rank) ∈ dot_S4096x32_S512x4096_S32x512_0_1_1_0_n_n.lhsBatch by decide), dif_pos (show (1 : Fin S4096x32.rank) ∈ dot_S4096x32_S512x4096_S32x512_0_1_1_0_n_n.lhsNonContracting by decide)]
  rfl
theorem d2_rhs0 (i : S32x512.Idx) (q : dot_S4096x32_S512x4096_S32x512_0_1_1_0_n_n.contr.Idx) : (dot_S4096x32_S512x4096_S32x512_0_1_1_0_n_n.rhsIdx i q 0).val = (i 1).val := by
  unfold DotDims.rhsIdx
  rw [dif_neg (show ¬(0 : Fin S512x4096.rank) ∈ dot_S4096x32_S512x4096_S32x512_0_1_1_0_n_n.rhsBatch by decide), dif_pos (show (0 : Fin S512x4096.rank) ∈ dot_S4096x32_S512x4096_S32x512_0_1_1_0_n_n.rhsNonContracting by decide)]
  rfl
theorem d2_rhs1 (i : S32x512.Idx) (q : dot_S4096x32_S512x4096_S32x512_0_1_1_0_n_n.contr.Idx) : (dot_S4096x32_S512x4096_S32x512_0_1_1_0_n_n.rhsIdx i q 1).val = (q ⟨0, by decide⟩).val :=
  dot_S4096x32_S512x4096_S32x512_0_1_1_0_n_n.rhsIdx_val_of_single rfl i q

/-- The second product into a zero accumulator, at (q, r): Σ_k h[k, q] · x[r, k]. -/
theorem mm2_apply (h : Vec Ideal S4096x32 .f32) (x : Vec Ideal S512x4096 .f32) (q : Fin 32) (r : Fin 512) :
    matmul (F := Ideal) (φ₁ := .f32) (φ₂ := .f32) dot_S4096x32_S512x4096_S32x512_0_1_1_0_n_n none h x (constant (F := Ideal) S32x512 .f32 0x00000000#32) (ix2 q r)
      = ∑ k : Fin 4096, h (ix2 k q) * x (ix2 r k) := by
  show FloatOps.matmul (φ₁ := .f32) (φ₂ := .f32) dot_S4096x32_S512x4096_S32x512_0_1_1_0_n_n none h x (constant (F := Ideal) S32x512 .f32 0x00000000#32) (ix2 q r) = _
  rw [Ideal.matmul_constant_zero_apply, ← Equiv.sum_comp (ValueIdx.contrEquiv1 dot_S4096x32_S512x4096_S32x512_0_1_1_0_n_n 4096 rfl rfl).symm]
  refine Finset.sum_congr rfl fun k _ => ?_
  have hk := ValueIdx.contrEquiv1_symm_val dot_S4096x32_S512x4096_S32x512_0_1_1_0_n_n 4096 rfl rfl k
  have el : dot_S4096x32_S512x4096_S32x512_0_1_1_0_n_n.lhsIdx (ix2 q r) ((ValueIdx.contrEquiv1 dot_S4096x32_S512x4096_S32x512_0_1_1_0_n_n 4096 rfl rfl).symm k) = ix2 k q := funext fun a => Fin.ext (by
    match a with
    | ⟨0, _⟩ => exact (d2_lhs0 _ _).trans hk
    | ⟨1, _⟩ => exact d2_lhs1 _ _)
  have er : dot_S4096x32_S512x4096_S32x512_0_1_1_0_n_n.rhsIdx (ix2 q r) ((ValueIdx.contrEquiv1 dot_S4096x32_S512x4096_S32x512_0_1_1_0_n_n 4096 rfl rfl).symm k) = ix2 r k := funext fun a => Fin.ext (by
    match a with
    | ⟨0, _⟩ => exact d2_rhs0 _ _
    | ⟨1, _⟩ => exact (d2_rhs1 _ _).trans hk)
  rw [el, er]

theorem pay2_apply (h : Vec Ideal S4096x32 .f32) (x : Vec Ideal S512x4096 .f32) (q : Fin 32) (r : Fin 512) :
    k0_pay2 (F := Ideal) h x (ix2 q r) = ∑ k : Fin 4096, h (ix2 k q) * x (ix2 r k) := mm2_apply h x q r
theorem pay3_apply (h : Vec Ideal S4096x32 .f32) (x : Vec Ideal S512x4096 .f32) (q : Fin 32) (r : Fin 512) :
    k0_pay3 (F := Ideal) h x (ix2 q r) = ∑ k : Fin 4096, h (ix2 k q) * x (ix2 r k) := mm2_apply h x q r

end Cert.KernelIdeal.Hand

end
-- ==== Proof.Final.lean ====
/-
  The region's two results as whole arrays, and the transposed result at an index.

  Point t writes columns [512 t, 512 t + 512) of both 32×2048 results; the four points cover all 2048 columns. Entry (q, r)
  of the first result is Σ_k h[k, q] · a[r, k] (`top`), of the second Σ_k h[k, q] · a[r + 2048, k] (`bot`): the second
  window on a is four blocks, 2048 rows, further down. Concatenating the two along the columns and transposing gives, at
  (r, j), Σ_k h[k, j] · a[r, k] for every row r of a: the first result serves r < 2048, the second the rest.
-/
import proofs.«132720_g11879879542422_cont_fleet_303_39_alg».proof.Proof.Run
import proofs.«132720_g11879879542422_cont_fleet_303_39_alg».proof.Proof.Pay
import Idealize.ShloMosaic.Lib.ValueLayout

set_option maxRecDepth 16384

noncomputable section

namespace Cert.KernelIdeal.Hand

open Idealize.ShloMosaic Idealize.ShloMosaic.TcCoe Idealize.SL.Sem
open Idealize.ShloMosaic.ValueIdx
open Cert.KernelIdeal Cert.KernelIdeal.Gen

open Idealize.ShloMosaic.Pipeline (Dat)

variable (m : (ℓ : Loc nD τ sig) → Buf (Elt Ideal) ℓ)

/-- Rows 0 … 2047 of a against h: entry (q, r) is Σ_k h[k, q] · a[r, k]. -/
def top (a : S4096x4096.Idx → EReal) (h : S4096x32.Idx → EReal) : S32x2048.Idx → EReal :=
  fun i => ∑ k : Fin 4096, h (ix2 k (i 0)) * a (ix2 ⟨(i 1).val, by have h1 : (i 1).val < 2048 := (i 1).isLt; omega⟩ k)
/-- Rows 2048 … 4095 of a against h: entry (q, r) is Σ_k h[k, q] · a[r + 2048, k]. -/
def bot (a : S4096x4096.Idx → EReal) (h : S4096x32.Idx → EReal) : S32x2048.Idx → EReal :=
  fun i => ∑ k : Fin 4096, h (ix2 k (i 0)) * a (ix2 ⟨(i 1).val + 2048, by have h1 : (i 1).val < 2048 := (i 1).isLt; omega⟩ k)

/-- The printed index maps over the grid: both results' blocks move along the columns with the point, the first window
    on a along the rows with the point, the second four blocks further. -/
theorem idx_facts : ∀ t : Fin cfg0.N,
    win0_5.index t (0 : Fin 2) = 0 ∧ win0_5.index t (1 : Fin 2) = t.val
    ∧ win0_6.index t (0 : Fin 2) = 0 ∧ win0_6.index t (1 : Fin 2) = t.val
    ∧ win0_3.index t (0 : Fin 2) = t.val ∧ win0_3.index t (1 : Fin 2) = 0
    ∧ win0_4.index t (0 : Fin 2) = t.val + 4 ∧ win0_4.index t (1 : Fin 2) = 0 ∧ t.val < 4 :=
  (by decide +kernel : ∀ t : Fin grid0.N, _)

/-- The a-block of window 3 at point `t`, read at (r, k): row 512 t + r of a. -/
theorem read3 (c : Dev nD) (t : Fin cfg0.N) (r : Fin 512) (k : Fin 4096) :
    iblk m c 3 t (ix2 r k) = V m c main_arg0 (ix2 ⟨512 * t.val + r.val, by have := (idx_facts t).2.2.2.2.2.2.2.2; omega⟩ k) := by
  obtain ⟨e50, e51, e60, e61, e30, e31, e40, e41, hN⟩ := idx_facts t
  show V m c main_arg0 (((cfg0.win 3).blk t).view.emb (ix2 r k)) = V m c main_arg0 _
  refine congrArg _ ?_
  funext a; apply Fin.ext
  match a with
  | ⟨0, _⟩ => show win0_3.index t (0 : Fin 2) * 512 + 1 * r.val = 512 * t.val + r.val; omega
  | ⟨1, _⟩ => show win0_3.index t (1 : Fin 2) * 4096 + 1 * k.val = k.val; omega

/-- A 512-row block of a against h is 512 columns of `top`. -/
theorem top_of_block (a : S4096x4096.Idx → EReal) (h : Vec Ideal S4096x32 .f32) (x : Vec Ideal S512x4096 .f32) (n : ℕ) (hn : n < 4)
    (hx : ∀ (r : Fin 512) (k : Fin 4096), x (ix2 r k) = a (ix2 ⟨512 * n + r.val, by omega⟩ k)) (q : Fin 32) (r : Fin 512) :
    k0_pay2 (F := Ideal) h x (ix2 q r) = top a h (ix2 q ⟨512 * n + r.val, by omega⟩) := by
  rw [pay2_apply]; unfold top
  exact Finset.sum_congr rfl fun k _ => by rw [hx r k]

set_option maxHeartbeats 400000 in
/-- WHAT POINT `t` WRITES BACK through window 5 is block `t` of `top` of a (as the region finds it) and h. -/
theorem flushed5_eq (c : Dev nD) (t : Fin cfg0.N) :
    (dats m 0 c).flushed 5 t = ((cfg0.win 5).blk t).view.read (Elt Ideal) (top (V m c main_arg0) (hval m c)) := by
  show (cfg0.win 5).cut (grid0.coords t) ((dats m 0 c).after 5 t) = _
  rw [after5]
  obtain ⟨e50, e51, e60, e61, e30, e31, e40, e41, hN⟩ := idx_facts t
  funext j
  obtain ⟨q, r, rfl⟩ : ∃ (q : Fin 32) (r : Fin 512), j = ix2 q r := ⟨j 0, j 1, eq_ix2 j⟩
  refine (top_of_block (V m c main_arg0) (hval m c) (iblk m c 3 t) t.val hN (read3 m c t) q r).trans ?_
  show top (V m c main_arg0) (hval m c) _ = top (V m c main_arg0) (hval m c) (((cfg0.win 5).blk t).view.emb (ix2 q r))
  refine congrArg _ ?_
  funext a; apply Fin.ext
  match a with
  | ⟨0, _⟩ => show q.val = win0_5.index t (0 : Fin 2) * 32 + 1 * q.val; omega
  | ⟨1, _⟩ => show 512 * t.val + r.val = win0_5.index t (1 : Fin 2) * 512 + 1 * r.val; omega

/-- An index of the 32×2048 result is in point `t`'s block iff each coordinate is in the block's range on its axis. -/
theorem mem_blk5 (t : Fin cfg0.N) (i : S32x2048.Idx) :
    i ∈ ((cfg0.win 5).blk t).view.set ↔ ∀ a : Fin 2, win0_5.index t a * S32x512.size a ≤ (i a).val ∧ (i a).val < win0_5.index t a * S32x512.size a + S32x512.size a := by
  show i ∈ ((View.whole main_v1_0).slice (win0_5.rect t)).set ↔ _
  rw [View.set_slice_whole, Rect.mem_set_unit]
  exact Iff.rfl

/-- Column r of the result lies in the block of point r / 512. -/
theorem cover5 (i : S32x2048.Idx) : ∃ t : Fin cfg0.N, (cfg0.win 5).flush t = true ∧ i ∈ ((cfg0.win 5).blk t).view.set := by
  have hi0 : (i 0).val < 32 := (i 0).isLt
  have hi1 : (i 1).val < 2048 := (i 1).isLt
  have hN : cfg0.N = 4 := N_0
  refine ⟨⟨(i 1).val / 512, by omega⟩, flush0_5 _, ?_⟩
  obtain ⟨e50, e51, e60, e61, e30, e31, e40, e41, -⟩ := idx_facts ⟨(i 1).val / 512, by omega⟩
  rw [mem_blk5]
  intro a
  match a with
  | ⟨0, _⟩ => show win0_5.index _ (0 : Fin 2) * 32 ≤ (i 0).val ∧ (i 0).val < win0_5.index _ (0 : Fin 2) * 32 + 32; omega
  | ⟨1, _⟩ => show win0_5.index _ (1 : Fin 2) * 512 ≤ (i 1).val ∧ (i 1).val < win0_5.index _ (1 : Fin 2) * 512 + 512; dsimp only at e51 e61; omega

/-- THE ARRAY after the run. -/
theorem final5 (c : Dev nD) : (dats m 0 c).arrAt 5 cfg0.N = top (V m c main_arg0) (hval m c) :=
  (dats m 0 c).arrAt_eq_of_cover 5 _ (fun t _ => flushed5_eq m c t) cover5

/-- The a-block of window 4 at point `t`, read at (r, k): row 512 t + r + 2048 of a. -/
theorem read4 (c : Dev nD) (t : Fin cfg0.N) (r : Fin 512) (k : Fin 4096) :
    iblk m c 4 t (ix2 r k) = V m c main_arg0 (ix2 ⟨512 * t.val + r.val + 2048, by have := (idx_facts t).2.2.2.2.2.2.2.2; omega⟩ k) := by
  obtain ⟨e50, e51, e60, e61, e30, e31, e40, e41, hN⟩ := idx_facts t
  show V m c main_arg0 (((cfg0.win 4).blk t).view.emb (ix2 r k)) = V m c main_arg0 _
  refine congrArg _ ?_
  funext a; apply Fin.ext
  match a with
  | ⟨0, _⟩ => show win0_4.index t (0 : Fin 2) * 512 + 1 * r.val = 512 * t.val + r.val + 2048; omega
  | ⟨1, _⟩ => show win0_4.index t (1 : Fin 2) * 4096 + 1 * k.val = k.val; omega

/-- A 512-row block of a against h is 512 columns of `bot`. -/
theorem bot_of_block (a : S4096x4096.Idx → EReal) (h : Vec Ideal S4096x32 .f32) (x : Vec Ideal S512x4096 .f32) (n : ℕ) (hn : n < 4)
    (hx : ∀ (r : Fin 512) (k : Fin 4096), x (ix2 r k) = a (ix2 ⟨512 * n + r.val + 2048, by omega⟩ k)) (q : Fin 32) (r : Fin 512) :
    k0_pay3 (F := Ideal) h x (ix2 q r) = bot a h (ix2 q ⟨512 * n + r.val, by omega⟩) := by
  rw [pay3_apply]; unfold bot
  exact Finset.sum_congr rfl fun k _ => by rw [hx r k]

set_option maxHeartbeats 400000 in
/-- WHAT POINT `t` WRITES BACK through window 6 is block `t` of `bot` of a (as the region finds it) and h. -/
theorem flushed6_eq (c : Dev nD) (t : Fin cfg0.N) :
    (dats m 0 c).flushed 6 t = ((cfg0.win 6).blk t).view.read (Elt Ideal) (bot (V m c main_arg0) (hval m c)) := by
  show (cfg0.win 6).cut (grid0.coords t) ((dats m 0 c).after 6 t) = _
  rw [after6]
  obtain ⟨e50, e51, e60, e61, e30, e31, e40, e41, hN⟩ := idx_facts t
  funext j
  obtain ⟨q, r, rfl⟩ : ∃ (q : Fin 32) (r : Fin 512), j = ix2 q r := ⟨j 0, j 1, eq_ix2 j⟩
  refine (bot_of_block (V m c main_arg0) (hval m c) (iblk m c 4 t) t.val hN (read4 m c t) q r).trans ?_
  show bot (V m c main_arg0) (hval m c) _ = bot (V m c main_arg0) (hval m c) (((cfg0.win 6).blk t).view.emb (ix2 q r))
  refine congrArg _ ?_
  funext a; apply Fin.ext
  match a with
  | ⟨0, _⟩ => show q.val = win0_6.index t (0 : Fin 2) * 32 + 1 * q.val; omega
  | ⟨1, _⟩ => show 512 * t.val + r.val = win0_6.index t (1 : Fin 2) * 512 + 1 * r.val; omega

/-- An index of the 32×2048 result is in point `t`'s block iff each coordinate is in the block's range on its axis. -/
theorem mem_blk6 (t : Fin cfg0.N) (i : S32x2048.Idx) :
    i ∈ ((cfg0.win 6).blk t).view.set ↔ ∀ a : Fin 2, win0_6.index t a * S32x512.size a ≤ (i a).val ∧ (i a).val < win0_6.index t a * S32x512.size a + S32x512.size a := by
  show i ∈ ((View.whole main_v1_1).slice (win0_6.rect t)).set ↔ _
  rw [View.set_slice_whole, Rect.mem_set_unit]
  exact Iff.rfl

/-- Column r of the result lies in the block of point r / 512. -/
theorem cover6 (i : S32x2048.Idx) : ∃ t : Fin cfg0.N, (cfg0.win 6).flush t = true ∧ i ∈ ((cfg0.win 6).blk t).view.set := by
  have hi0 : (i 0).val < 32 := (i 0).isLt
  have hi1 : (i 1).val < 2048 := (i 1).isLt
  have hN : cfg0.N = 4 := N_0
  refine ⟨⟨(i 1).val / 512, by omega⟩, flush0_6 _, ?_⟩
  obtain ⟨e50, e51, e60, e61, e30, e31, e40, e41, -⟩ := idx_facts ⟨(i 1).val / 512, by omega⟩
  rw [mem_blk6]
  intro a
  match a with
  | ⟨0, _⟩ => show win0_6.index _ (0 : Fin 2) * 32 ≤ (i 0).val ∧ (i 0).val < win0_6.index _ (0 : Fin 2) * 32 + 32; omega
  | ⟨1, _⟩ => show win0_6.index _ (1 : Fin 2) * 512 ≤ (i 1).val ∧ (i 1).val < win0_6.index _ (1 : Fin 2) * 512 + 512; dsimp only at e51 e61; omega

/-- THE ARRAY after the run. -/
theorem final6 (c : Dev nD) : (dats m 0 c).arrAt 6 cfg0.N = bot (V m c main_arg0) (hval m c) :=
  (dats m 0 c).arrAt_eq_of_cover 6 _ (fun t _ => flushed6_eq m c t) cover6

end Cert.KernelIdeal.Hand

end
-- ==== Proof.Spec.lean ====
/-
  The specification: what both programs compute, as one function of the four argument arrays over the extended reals.

  h = b·W + bias, the bias added to every row: h[p, q] = (Σ_l b[p, l] · W[l, q]) + bias[q]. The result is a·h:
  out[r, j] = Σ_k a[r, k] · h[k, j].
-/
import Idealize.ShloMosaic.PureOps.Ideal
import Idealize.ShloMosaic.Lib.ValueIdx

noncomputable section

namespace Cert.Spec

open Idealize.ShloMosaic Idealize.ShloMosaic.ValueIdx

/-- h = b·W + bias. -/
def hOf (b : (⟨2, ![4096, 256]⟩ : Shape).Idx → EReal) (W : (⟨2, ![256, 32]⟩ : Shape).Idx → EReal) (bias : (⟨1, ![32]⟩ : Shape).Idx → EReal) :
    (⟨2, ![4096, 32]⟩ : Shape).Idx → EReal :=
  fun i => (∑ l : Fin 256, b (ix2 (i 0) l) * W (ix2 l (i 1))) + bias (ix1 (i 1))

/-- a·h. -/
def outOf (a : (⟨2, ![4096, 4096]⟩ : Shape).Idx → EReal) (h : (⟨2, ![4096, 32]⟩ : Shape).Idx → EReal) :
    (⟨2, ![4096, 32]⟩ : Shape).Idx → EReal :=
  fun i => ∑ k : Fin 4096, a (ix2 (i 0) k) * h (ix2 k (i 1))

theorem hOf_ix (b : (⟨2, ![4096, 256]⟩ : Shape).Idx → EReal) (W : (⟨2, ![256, 32]⟩ : Shape).Idx → EReal) (bias : (⟨1, ![32]⟩ : Shape).Idx → EReal)
    (p : Fin 4096) (q : Fin 32) : hOf b W bias (ix2 p q) = (∑ l : Fin 256, b (ix2 p l) * W (ix2 l q)) + bias (ix1 q) := rfl

theorem outOf_ix (a : (⟨2, ![4096, 4096]⟩ : Shape).Idx → EReal) (h : (⟨2, ![4096, 32]⟩ : Shape).Idx → EReal)
    (r : Fin 4096) (j : Fin 32) : outOf a h (ix2 r j) = ∑ k : Fin 4096, a (ix2 r k) * h (ix2 k j) := rfl

end Cert.Spec

end
-- ==== Proof.Out.lean ====
/-
  The kernel's transposed result is the specification.

  h as the first point computes it is b·W + bias of the launch arrays: windows 0, 1, 2 are whole arrays (block index 0),
  and the 1×32 row the kernel adds is the reshaped bias. The transposed concatenation at (r, j) reads the first result at
  (j, r) when r < 2048 and the second at (j, r − 2048) otherwise: Σ_k h[k, j] · a[r, k] either way, which is the
  specification's Σ_k a[r, k] · h[k, j] by commutativity of the product, term by term.
-/
import proofs.«132720_g11879879542422_cont_fleet_303_39_alg».proof.Proof.Final
import proofs.«132720_g11879879542422_cont_fleet_303_39_alg».proof.Proof.Spec

set_option maxRecDepth 16384

noncomputable section

namespace Cert.KernelIdeal.Hand

open Idealize.ShloMosaic Idealize.ShloMosaic.TcCoe Idealize.SL.Sem
open Idealize.ShloMosaic.ValueIdx
open Cert.KernelIdeal Cert.KernelIdeal.Gen

open Idealize.ShloMosaic.Pipeline (Dat)
open Cert.Spec

variable (m : (ℓ : Loc nD τ sig) → Buf (Elt Ideal) ℓ)

/-- The three small windows sit at block index 0 at every point. -/
theorem idx_small : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

theorem read0 (c : Dev nD) (t : Fin cfg0.N) (k : Fin 4096) (l : Fin 256) : iblk m c 0 t (ix2 k l) = V m c main_arg1 (ix2 k l) := by
  obtain ⟨e00, e01, e10, e11, e20, e21⟩ := idx_small t
  show V m c main_arg1 (((cfg0.win 0).blk t).view.emb (ix2 k l)) = V m c main_arg1 _
  refine congrArg _ ?_
  funext a; apply Fin.ext
  match a with
  | ⟨0, _⟩ => show win0_0.index t (0 : Fin 2) * 4096 + 1 * k.val = k.val; omega
  | ⟨1, _⟩ => show win0_0.index t (1 : Fin 2) * 256 + 1 * l.val = l.val; omega
theorem read1 (c : Dev nD) (t : Fin cfg0.N) (l : Fin 256) (j : Fin 32) : iblk m c 1 t (ix2 l j) = V m c main_arg2 (ix2 l j) := by
  obtain ⟨e00, e01, e10, e11, e20, e21⟩ := idx_small t
  show V m c main_arg2 (((cfg0.win 1).blk t).view.emb (ix2 l j)) = V m c main_arg2 _
  refine congrArg _ ?_
  funext a; apply Fin.ext
  match a with
  | ⟨0, _⟩ => show win0_1.index t (0 : Fin 2) * 256 + 1 * l.val = l.val; omega
  | ⟨1, _⟩ => show win0_1.index t (1 : Fin 2) * 32 + 1 * j.val = j.val; omega
theorem read2 (c : Dev nD) (t : Fin cfg0.N) (j : Fin 32) : iblk m c 2 t (ix2 0 j) = V m c main_v0 (ix2 0 j) := by
  obtain ⟨e00, e01, e10, e11, e20, e21⟩ := idx_small t
  show V m c main_v0 (((cfg0.win 2).blk t).view.emb (ix2 0 j)) = V m c main_v0 _
  refine congrArg _ ?_
  funext a; apply Fin.ext
  match a with
  | ⟨0, _⟩ => show win0_2.index t (0 : Fin 2) * 1 + 1 * 0 = 0; omega
  | ⟨1, _⟩ => show win0_2.index t (1 : Fin 2) * 32 + 1 * j.val = j.val; omega

/-- The region finds the bias reshaped to one row. -/
theorem V_v0 (c : Dev nD) : (V m c main_v0 : S1x32.Idx → EReal) = shapeCast S1x32 (m ((c : Thread nD τ).loc main_arg3)) Facts₀.shapeCasts_S32_S1x32 := by
  dsimp only [V, V0]; simp only [hostOps0, List.flatten_cons, List.flatten_nil, List.append_nil]; after_results; rfl
theorem V_v0_apply (c : Dev nD) (j : Fin 32) : V m c main_v0 (ix2 0 j) = m ((c : Thread nD τ).loc main_arg3) (ix1 j) := by
  rw [V_v0]
  exact (shapeCast_addUnit_apply ![32] _ _ (ix2 0 j)).trans (congrArg _ (funext fun a => by match a with | ⟨0, _⟩ => rfl))

/-- h, as the first point computes it, is the specification's b·W + bias of the launch arrays. -/
theorem hval_apply (c : Dev nD) (k : Fin 4096) (j : Fin 32) :
    hval m c (ix2 k j) = hOf (m ((c : Thread nD τ).loc main_arg1)) (m ((c : Thread nD τ).loc main_arg2)) (m ((c : Thread nD τ).loc main_arg3)) (ix2 k j) := by
  unfold hval
  refine (pay1_apply (iblk m c 0 t0_0) (iblk m c 1 t0_0) (iblk m c 2 t0_0) k j).trans ?_
  rw [hOf_ix, read2, V_v0_apply]
  refine congrArg (· + _) ?_
  exact Finset.sum_congr rfl fun l _ => by rw [read0, read1, V_arg1, V_arg2]

/-- The transposed result is the transpose of the two whole-array results side by side. -/
theorem Vend_v3 (c : Dev nD) :
    Vend m c main_v3 = transpose S4096x32 [1, 0] (concatenate S32x4096 1 [⟨S32x2048, top (V m c main_arg0) (hval m c)⟩, ⟨S32x2048, bot (V m c main_arg0) (hval m c)⟩]
      Facts₀.concatenates_S32x2048_S32x2048_S32x4096_d1) Facts₀.transposes_S32x4096_S4096x32_1_0 := by
  unfold Vend; simp only [hostOps1, List.flatten_cons, List.flatten_nil, List.append_nil]; after_results
  rw [Wt_v1_0, Wt_v1_1, final5, final6]

/-- The transposed result at (r, j): Σ_k h[k, j] · a[r, k], from the first result for r < 2048 and the second otherwise. -/
theorem out_apply (c : Dev nD) (r : Fin 4096) (j : Fin 32) :
    Vend m c main_v3 (ix2 r j) = ∑ k : Fin 4096, hval m c (ix2 k j) * V m c main_arg0 (ix2 r k) := by
  rw [Vend_v3]
  refine (transpose_ix2_apply _ Facts₀.transposes_S32x4096_S4096x32_1_0 r j).trans ?_
  by_cases hr : r.val < 2048
  · refine (concatenate_pair_apply_left (t := S32x4096) (s₁ := S32x2048) (s₂ := S32x2048) (1 : Fin 2) (top (V m c main_arg0) (hval m c)) (bot (V m c main_arg0) (hval m c)) Facts₀.concatenates_S32x2048_S32x2048_S32x4096_d1 (ix2 j r) rfl (ix2 j (⟨r.val, hr⟩ : Fin 2048) : S32x2048.Idx)
      (fun b => by match b with | ⟨0, _⟩ => rfl | ⟨1, _⟩ => rfl)).trans ?_
    rfl
  · have hr' : r.val - 2048 < 2048 := by have := r.isLt; omega
    refine (concatenate_pair_apply_right (t := S32x4096) (s₁ := S32x2048) (s₂ := S32x2048) (1 : Fin 2) (top (V m c main_arg0) (hval m c)) (bot (V m c main_arg0) (hval m c)) Facts₀.concatenates_S32x2048_S32x2048_S32x4096_d1 (ix2 j r) rfl rfl (ix2 j (⟨r.val - 2048, hr'⟩ : Fin 2048) : S32x2048.Idx)
      (fun b hb => by match b with | ⟨0, _⟩ => rfl | ⟨1, _⟩ => exact absurd rfl hb)
      (by show r.val - 2048 + 2048 = r.val; omega)).trans ?_
    unfold bot
    refine Finset.sum_congr rfl fun k _ => ?_
    refine congrArg (_ * ·) (congrArg _ ?_)
    funext a; apply Fin.ext
    match a with
    | ⟨0, _⟩ => show r.val - 2048 + 2048 = r.val; omega
    | ⟨1, _⟩ => rfl

/-- THE KERNEL'S RESULT is the specification of the launch arrays. -/
theorem kernel_is_spec (c : Dev nD) :
    Vend m c main_v3 = outOf (m ((c : Thread nD τ).loc main_arg0))
      (hOf (m ((c : Thread nD τ).loc main_arg1)) (m ((c : Thread nD τ).loc main_arg2)) (m ((c : Thread nD τ).loc main_arg3))) := by
  funext i
  obtain ⟨r, j, rfl⟩ : ∃ (r : Fin 4096) (j : Fin 32), i = ix2 r j := ⟨i 0, i 1, eq_ix2 i⟩
  show @Eq EReal (Vend m c main_v3 (ix2 r j)) (outOf _ _ (ix2 r j))
  rw [out_apply, outOf_ix]
  refine Finset.sum_congr (M := EReal) rfl fun k _ => ?_
  rw [hval_apply, V_arg0]
  exact mul_comm _ _

end Cert.KernelIdeal.Hand

end
-- ==== Proof.RefValue.lean ====
/-
  The reference's result is the specification: jnp.dot(a, jnp.dot(b, W) + bias), read one operation at a time.
  The reference broadcasts the bias to 1×32 and then down the 4096 rows, so its row p, column q summand is bias[q].
-/
import proofs.«132720_g11879879542422_cont_fleet_303_39_alg».proof.Proof.Gen.ReferenceIdeal.Read
import proofs.«132720_g11879879542422_cont_fleet_303_39_alg».proof.Proof.Spec

noncomputable section

namespace Cert.ReferenceIdeal.RefValue

open Cert.ReferenceIdeal Cert.ReferenceIdeal.Gen Cert.ReferenceIdeal.Read Idealize.ShloMosaic Idealize.ShloMosaic.TcCoe Idealize.SL.Sem
open Idealize.ShloMosaic.ValueIdx Cert.Spec

theorem ref_is_spec (x0 : (⟨S4096x4096, .f32⟩ : BufTy).Contents (Elt Ideal)) (x1 : (⟨S4096x256, .f32⟩ : BufTy).Contents (Elt Ideal))
    (x2 : (⟨S256x32, .f32⟩ : BufTy).Contents (Elt Ideal)) (x3 : (⟨S32, .f32⟩ : BufTy).Contents (Elt Ideal)) :
    val_main_v4 (F := Ideal) x0 x1 x2 x3 = outOf x0 (hOf x1 x2 x3) := by
  funext i
  obtain ⟨r, j, rfl⟩ : ∃ (r : Fin 4096) (j : Fin 32), i = ix2 r j := ⟨i 0, i 1, eq_ix2 i⟩
  have e0 : ∀ k : Fin 4096, lidx_main_v4 (ix2 r j) k = ix2 r k := fun k => funext fun a => Fin.ext (by match a with | ⟨0, _⟩ => rfl | ⟨1, _⟩ => rfl)
  have e1 : ∀ k : Fin 4096, ridx_main_v4 (ix2 r j) k = ix2 k j := fun k => funext fun a => Fin.ext (by match a with | ⟨0, _⟩ => rfl | ⟨1, _⟩ => rfl)
  have e2 : ∀ (k : Fin 4096) (l : Fin 256), lidx_main_v0 (ix2 k j) l = ix2 k l := fun k l => funext fun a => Fin.ext (by match a with | ⟨0, _⟩ => rfl | ⟨1, _⟩ => rfl)
  have e3 : ∀ (k : Fin 4096) (l : Fin 256), ridx_main_v0 (ix2 k j) l = ix2 l j := fun k l => funext fun a => Fin.ext (by match a with | ⟨0, _⟩ => rfl | ⟨1, _⟩ => rfl)
  have e4 : ∀ k : Fin 4096, idx_main_v1 (idx_main_v2 (ix2 k j)) = ix1 j := fun k => funext fun a => Fin.ext (by match a with | ⟨0, _⟩ => rfl)
  rw [val_main_v4_apply, outOf_ix]
  refine Finset.sum_congr rfl fun k _ => ?_
  rw [e0, e1, val_main_v3_apply, val_main_v0_apply, val_main_v2_apply, val_main_v1_apply, hOf_ix, e4]
  simp only [e2, e3]
  rfl

end Cert.ReferenceIdeal.RefValue

end
-- ==== Proof.lean ====
/-
  The kernel computes a·(b·W + bias) for a : 4096×4096, b : 4096×256, W : 256×32, bias : 32, as the transpose of
  hᵀ·aᵀ with h = b·W + bias: at its first grid point it stores h in a scratch buffer; at each of its four points it
  multiplies hᵀ by the transposes of two 512-row blocks of a — rows [512 t, 512 t + 512) and the same rows 2048 further
  down — into column blocks of two 32×2048 results; @main then puts the two results side by side and transposes.
  The reference is jnp.dot(a, jnp.dot(b, W) + bias).

  Over the extended reals both are out[r, j] = Σ_k a[r, k] · h[k, j] with h[k, j] = (Σ_l b[k, l] · W[l, j]) + bias[j]
  (Proof/Spec.lean): the kernel's sum has its factors in the other order, and commutativity of the product on the
  extended reals, term by term, is the only law used — no distributivity, so nothing is asked of the inputs' finiteness.

  The modules: Proof/Body.lean (the body at one point, as two Hoare triples: first point, later point), Proof/Data.lean
  (what each staging buffer holds after each point, the scratch tracked from the first point on; the body obligation),
  Proof/Run.lean (the run of @main: the one array a is read through two windows, each holding half of its share; the two
  lines after the region), and their counterparts for the word-level program (BodyK, DataK, RunK: the same text, which is
  generic in the float instance); Proof/Pay.lean (the three payloads at an index), Proof/Final.lean (the two results as
  whole arrays), Proof/Out.lean (the transposed result is the specification), Proof/RefValue.lean (so is the reference's).
  The idealization rewrote nothing, so there is nothing to preserve.
-/
import proofs.«132720_g11879879542422_cont_fleet_303_39_alg».proof.Defs
import proofs.«132720_g11879879542422_cont_fleet_303_39_alg».proof.Proof.Gen.Kernel
import proofs.«132720_g11879879542422_cont_fleet_303_39_alg».proof.Proof.Gen.KernelIdeal
import proofs.«132720_g11879879542422_cont_fleet_303_39_alg».proof.Proof.Gen.ReferenceIdeal
import proofs.«132720_g11879879542422_cont_fleet_303_39_alg».proof.Proof.Gen.Pre_finite_inputs
import proofs.«132720_g11879879542422_cont_fleet_303_39_alg».proof.Proof.Gen.ReferenceIdeal.Run
import proofs.«132720_g11879879542422_cont_fleet_303_39_alg».proof.Proof.Gen.ReferenceIdeal.Read
import proofs.«132720_g11879879542422_cont_fleet_303_39_alg».proof.Proof.RunK
import proofs.«132720_g11879879542422_cont_fleet_303_39_alg».proof.Proof.Out
import proofs.«132720_g11879879542422_cont_fleet_303_39_alg».proof.Proof.RefValue
import Idealize.ShloMosaic.Adequacy
import Idealize.ShloMosaic.Init

noncomputable section

namespace Cert.Proof

open Idealize.ShloMosaic Idealize.SL.Sem

/-- The word-level kernel runs to the end and leaves its four argument arrays as they were. -/
theorem frame_k : Cert.frame_Kernel := fun m ρ _ =>
  (θ_run Cert.Kernel.defs _ _).mono (fun _ h c => (h c).2) (Cert.Kernel.Hand.run_args (F := Bits) m ρ)

/-- So does the idealized kernel. -/
theorem frame_ki : Cert.frame_KernelIdeal := fun m ρ _ =>
  (θ_run Cert.KernelIdeal.defs _ _).mono (fun _ h c => (h c).2) (Cert.KernelIdeal.Hand.run_args (F := Ideal) m ρ)

/-- And the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end at the specification of those arguments. -/
theorem algebraic : Cert.algebraic_KernelIdeal_ReferenceIdeal := by
  intro m ρ m' ρ' _ hagree
  refine ⟨fun c => Cert.KernelIdeal.Hand.Vend m c Cert.KernelIdeal.main_v3, Cert.KernelIdeal.Hand.run_args (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.ref_is_spec,
    (hagree c).1, (hagree c).2.1, (hagree c).2.2.1, (hagree c).2.2.2]
  exact (Cert.KernelIdeal.Hand.kernel_is_spec m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
